-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S800000 : Shape := ⟨1, ![800000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg18 : FVec F S128 .f32) (main_arg19 : FVec F S128x64 .f32) (main_arg20 : FVec F S64 .f32) (main_v63 : IVec S_ 1) (main_v67 : IVec S_ 1) : IVec S_ 1 :=
  let main_v68 : IVec S_ 1 := andi main_v63 main_v67
  let main_v69 : FVec F S128 .f32 := Host.absf main_arg18
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg19
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg15 : FVec F S128x128 .f32) (main_arg16 : FVec F S128 .f32) (main_arg17 : FVec F S128x128 .f32) (main_arg18 : FVec F S128 .f32) (main_arg19 : FVec F S128x64 .f32) (main_arg20 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg19 main_arg20 main_v63 main_v67

def fn_part2 {F : FTy → Type} [FloatOps F] (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x64 .f32) (main_arg20 : FVec F S64 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_v48 main_v49 main_v50

def fn_part1 {F : FTy → Type} [FloatOps F] (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x64 .f32) (main_arg20 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : FVec F S50000x128 .f32) (main_arg1 : FVec F S100000x128 .f32) (main_arg2 : IVec S800000 32) (main_arg3 : IVec S800000 32) (main_arg4 : IVec S1600000 32) (main_arg5 : IVec S1600000 32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128 .f32) (main_arg19 : FVec F S128x64 .f32) (main_arg20 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S100000x128 : Shape := ⟨2, ![100000, 128]⟩
abbrev S800000 : Shape := ⟨1, ![800000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 105
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x64, .f32⟩
  | .hbm, ⟨20, _⟩ => ⟨S64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S1x128, .f32⟩
  | .hbm, ⟨76, _⟩ => ⟨S100000x128, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S_, .f32⟩
  | .hbm, ⟨91, _⟩ => ⟨S1600000, .f32⟩
  | .hbm, ⟨92, _⟩ => ⟨S_, .f32⟩
  | .hbm, ⟨93, _⟩ => ⟨S100000, .f32⟩
  | .hbm, ⟨94, _⟩ => ⟨S1600000x1, .i32⟩
  | .hbm, ⟨95, _⟩ => ⟨S100000, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S100000x1, .f32⟩
  | .hbm, ⟨100, _⟩ => ⟨S100000x128, .f32⟩
  | .hbm, ⟨101, _⟩ => ⟨S100000x128, .f32⟩
  | .hbm, ⟨102, _⟩ => ⟨S1x128, .f32⟩
  | .hbm, ⟨103, _⟩ => ⟨S1x64, .f32⟩
  | .hbm, ⟨104, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S128x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_4 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_7 : Ref sig .tc := ⟨.hbm, 62, rfl⟩
abbrev main_v32 : Ref sig .tc := ⟨.hbm, 63, rfl⟩
abbrev main_cst_8 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_10 : Ref sig .tc := ⟨.hbm, 77, rfl⟩
abbrev main_v44 : Ref sig .tc := ⟨.hbm, 78, rfl⟩
abbrev main_v45 : Ref sig .tc := ⟨.hbm, 79, rfl⟩
abbrev main_c_11 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_13 : Ref sig .tc := ⟨.hbm, 90, rfl⟩
abbrev main_v54 : Ref sig .tc := ⟨.hbm, 91, rfl⟩
abbrev main_cst_14 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_15 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v64) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S800000 : Shape := ⟨1, ![800000]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩

abbrev nBuf : Space → Nat
  | .hbm => 141
  | .vmem => 0
  | .smem => 0
  | _ => 0

abbrev hbmTy0_0 (i : Nat) : BufTy := match i % 128 with
  | 0 => ⟨S50000x128, .f32⟩
  | 1 => ⟨S100000x128, .f32⟩
  | 2 => ⟨S800000, .i32⟩
  | 3 => ⟨S800000, .i32⟩
  | 4 => ⟨S1600000, .i32⟩
  | 5 => ⟨S1600000, .i32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128, .f32⟩
  | 19 => ⟨S128x64, .f32⟩
  | 20 => ⟨S64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S_, .f32⟩
  | 113 => ⟨S100000x128, .f32⟩
  | 114 => ⟨S1600000x1, .i32⟩
  | 115 => ⟨S100000x128, .f32⟩
  | 116 => ⟨S_, .f32⟩
  | 117 => ⟨S1600000, .f32⟩
  | 118 => ⟨S_, .f32⟩
  | 119 => ⟨S100000, .f32⟩
  | 120 => ⟨S1600000x1, .i32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x128, .f32⟩
  | 127 => ⟨S100000x128, .f32⟩
  | _ => ⟨S50000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S100000x64, .f32⟩
  | 10 => ⟨S1x64, .f32⟩
  | 11 => ⟨S100000x64, .f32⟩
  | 12 => ⟨S100000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst_1 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_call0_cst : Ref sig .tc := ⟨.hbm, 52, rfl⟩
abbrev main_call0_v0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call1_cst : Ref sig .tc := ⟨.hbm, 59, rfl⟩
abbrev main_call1_v0 : Ref sig .tc := ⟨.hbm, 60, rfl⟩
abbrev main_v30 : Ref sig .tc := ⟨.hbm, 61, rfl⟩
abbrev main_c_4 : Ref sig .tc := ⟨.hbm, 62, rfl⟩
abbrev main_v31 : Ref sig .tc := ⟨.hbm, 63, rfl⟩
abbrev main_v32 : Ref sig .tc := ⟨.hbm, 64, rfl⟩
abbrev main_c_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_v41 : Ref sig .tc := ⟨.hbm, 76, rfl⟩
abbrev main_cst_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_9 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_call2_cst : Ref sig .tc := ⟨.hbm, 93, rfl⟩
abbrev main_call2_v0 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_call3_cst : Ref sig .tc := ⟨.hbm, 100, rfl⟩
abbrev main_call3_v0 : Ref sig .tc := ⟨.hbm, 101, rfl⟩
abbrev main_v61 : Ref sig .tc := ⟨.hbm, 102, rfl⟩
abbrev main_c_10 : Ref sig .tc := ⟨.hbm, 103, rfl⟩
abbrev main_v62 : Ref sig .tc := ⟨.hbm, 104, rfl⟩
abbrev main_v63 : Ref sig .tc := ⟨.hbm, 105, rfl⟩
abbrev main_c_11 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_12 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_13 : Ref sig .tc := ⟨.hbm, 116, rfl⟩
abbrev main_v72 : Ref sig .tc := ⟨.hbm, 117, rfl⟩
abbrev main_cst_14 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_cst_15 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_call4_cst : Ref sig .tc := ⟨.hbm, 134, rfl⟩
abbrev main_call4_v0 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The kernel program's run with its result named.

  @main is three kernel regions among stretches of host operations. The generated frame module folds the buffer
  contents through the six segments (`W0` at launch … `W6` at the return) and proves that every weakly fair execution
  terminates with every unscoped buffer at `W6`; its own statement keeps only the argument arrays. Here the same launch
  theorem over the same segments is read at the result buffer as well: the run ends with the result at `W6`'s contents
  there, and the arguments as launched.
-/
import proofs.«102176_j76802605187593_1_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_result : θ_run defs (onTc (τ := τ) (main (F := F))) ⟨m, fun _ => 0, ρ⟩ (fun r => ∀ c : Dev nD,
      r.2.mem ((c.tc : Thread nD τ).loc main_v65) = W6 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v65 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c)⟩)

end Cert.Sage.Run

end
-- ==== Proof.KMean.lean ====
/-
  The neighbour mean, as the kernel program's host operations compute it, named.

  For a feature array `x` (50000 rows), a list of source nodes `src` and a list of destination nodes `dst`: negative
  source indices are wrapped by 50000, the rows `x[src e]` are gathered, scatter-added into a zero array at the rows
  `dst e`, and divided by the number of edges arriving at the row (a scatter-add of ones), or by one where none
  arrives. Both programs apply exactly these operations, so nothing here is opened: the mean is one function of
  `(x, src, dst)`, `meanM` over the 800000 movie–movie edges into 50000 rows and `meanU` over the 1600000 movie–user
  edges into 100000 rows.
-/
import proofs.«102176_j76802605187593_1_alg».proof.Proof.Gen.KernelIdeal
import Idealize.ShloMosaic.PureOps.Ideal

noncomputable section

namespace Cert.Sage.Host

open Idealize.ShloMosaic Cert.KernelIdeal Cert.KernelIdeal.Gen

/-- The neighbour mean over the movie–movie edges: row d is the sum of the rows `x[src e]` over the edges `e` with `dst e = d`, divided by the larger of their number and one. -/
def meanM (x : (⟨S50000x128, .f32⟩ : BufTy).Contents (Elt Ideal)) (src dst : (⟨S800000, .i32⟩ : BufTy).Contents (Elt Ideal)) :
    (⟨S50000x128, .f32⟩ : BufTy).Contents (Elt Ideal) :=
  Host.divf (F := Ideal)
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- The neighbour mean over the movie–user edges, into the 100000 user rows. -/
def meanU (x : (⟨S50000x128, .f32⟩ : BufTy).Contents (Elt Ideal)) (src dst : (⟨S1600000, .i32⟩ : BufTy).Contents (Elt Ideal)) :
    (⟨S100000x128, .f32⟩ : BufTy).Contents (Elt Ideal) :=
  Host.divf (F := Ideal)
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S50000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

end Cert.Sage.Host

end
-- ==== Proof.LibRowRead.lean ====
/-
  A vector reshaped into a one-row matrix, read at an index.

  `stablehlo.reshape` of a length-n vector to shape [1, n] (a bias vector handed to a kernel as a row) reads, at row 0
  and column k, the vector's entry k: the reshape adds a unit axis in front and keeps the row-major order.
-/
import Idealize.ShloMosaic.Lib.Pipeline.Value
import Idealize.ShloMosaic.Lib.ValueIdx

namespace Cert.Lib.RowRead

open Idealize.ShloMosaic Idealize.ShloMosaic.ValueIdx

/-- A vector of length `n` shape-cast to [1, n] reads its entry `k` at (0, k), whatever the element type. -/
theorem row_read {α : Type} {n : Nat} (v : (⟨1, ![n]⟩ : Shape).Idx → α) (h : (⟨1, ![n]⟩ : Shape).ShapeCasts ⟨2, ![1, n]⟩) (k : Fin n) :
    shapeCast (⟨2, ![1, n]⟩ : Shape) v h (ix2 (0 : Fin 1) k) = v (ix1 k) :=
  (shapeCast_addUnit_apply (n := 1) ![n] v h (ix2 (0 : Fin 1) k)).trans
    (congrArg v (funext fun a => by match a with | ⟨0, _⟩ => rfl))

end Cert.Lib.RowRead
-- ==== Proof.Spec.lean ====
/-
  One fused layer of the network, index by index, over the extended reals.

  For node features `agg` (the neighbour mean) and `self` (the node's own features), both N × 128, the layer is

      hid r k = max ((Σ_j agg r j · Wl j k  +  bl k)  +  Σ_j self r j · Wr j k) 0
      out r c = (Σ_k hid r k · Wd k c)  +  bd c                      (`layerLin`)
      out r c = max ((Σ_k hid r k · Wd k c)  +  bd c) 0              (`layerRelu`)

  with the sums associated exactly as both programs associate them, so that no law of the extended reals is needed to
  compare them. Row `r` of the result depends on row `r` of `agg` and of `self` only, and on the whole weight matrices:
  `hid_congr` and the two `layer…_congr` lemmas say so, which is what lets a block of rows be computed from the
  corresponding blocks of the inputs.
-/
import Idealize.ShloMosaic.PureOps.Ideal
import Idealize.ShloMosaic.Lib.ValueIdx

noncomputable section

namespace Cert.Sage

open Idealize.ShloMosaic Idealize.ShloMosaic.ValueIdx

/-- An a × b array of extended reals, as a function of its index. -/
abbrev Mat (a b : Nat) : Type := (⟨2, ![a, b]⟩ : Shape).Idx → EReal

/-- The value of the zero word of f32: the threshold of the rectifier. -/
abbrev zeroWord : EReal := Ideal.ofBits .f32 0x00000000#32

/-- The hidden activation of row `r`, column `k`: the rectified sum of the aggregated features through `Wl`, the bias, and
    the node's own features through `Wr`. -/
def hid {N : Nat} (agg self : Mat N 128) (Wl : Mat 128 128) (bl : Fin 128 → EReal) (Wr : Mat 128 128)
    (r : Fin N) (k : Fin 128) : EReal :=
  max (((∑ j : Fin 128, agg (ix2 r j) * Wl (ix2 j k)) + bl k) + ∑ j : Fin 128, self (ix2 r j) * Wr (ix2 j k)) zeroWord

/-- The layer's output before any final rectifier: the hidden activations through `Wd`, plus the bias `bd`. -/
def layerLin {N O : Nat} (agg self : Mat N 128) (Wl : Mat 128 128) (bl : Fin 128 → EReal) (Wr : Mat 128 128)
    (Wd : Mat 128 O) (bd : Fin O → EReal) : Mat N O := fun i =>
  (∑ k : Fin 128, hid agg self Wl bl Wr (i 0) k * Wd (ix2 k (i 1))) + bd (i 1)

/-- The layer's output with the final rectifier. -/
def layerRelu {N O : Nat} (agg self : Mat N 128) (Wl : Mat 128 128) (bl : Fin 128 → EReal) (Wr : Mat 128 128)
    (Wd : Mat 128 O) (bd : Fin O → EReal) : Mat N O := fun i =>
  max (layerLin agg self Wl bl Wr Wd bd i) zeroWord

/-- The hidden activation of a row depends on that row of the two feature arrays only. -/
theorem hid_congr {N N' : Nat} {agg self : Mat N 128} {agg' self' : Mat N' 128} {Wl Wl' : Mat 128 128}
    {bl bl' : Fin 128 → EReal} {Wr Wr' : Mat 128 128} (r : Fin N) (r' : Fin N')
    (ha : ∀ j, agg' (ix2 r' j) = agg (ix2 r j)) (hs : ∀ j, self' (ix2 r' j) = self (ix2 r j))
    (hWl : Wl' = Wl) (hbl : bl' = bl) (hWr : Wr' = Wr) (k : Fin 128) :
    hid agg' self' Wl' bl' Wr' r' k = hid agg self Wl bl Wr r k := by
  subst hWl hbl hWr
  unfold hid
  simp only [ha, hs]

/-- So does the layer's output at that row … -/
theorem layerLin_congr {N N' O : Nat} {agg self : Mat N 128} {agg' self' : Mat N' 128} {Wl Wl' : Mat 128 128}
    {bl bl' : Fin 128 → EReal} {Wr Wr' : Mat 128 128} {Wd Wd' : Mat 128 O} {bd bd' : Fin O → EReal}
    (r : Fin N) (r' : Fin N') (c : Fin O)
    (ha : ∀ j, agg' (ix2 r' j) = agg (ix2 r j)) (hs : ∀ j, self' (ix2 r' j) = self (ix2 r j))
    (hWl : Wl' = Wl) (hbl : bl' = bl) (hWr : Wr' = Wr) (hWd : Wd' = Wd) (hbd : bd' = bd) :
    layerLin agg' self' Wl' bl' Wr' Wd' bd' (ix2 r' c) = layerLin agg self Wl bl Wr Wd bd (ix2 r c) := by
  subst hWd hbd
  show (∑ k : Fin 128, hid agg' self' Wl' bl' Wr' r' k * Wd' (ix2 k c)) + bd' c
      = (∑ k : Fin 128, hid agg self Wl bl Wr r k * Wd' (ix2 k c)) + bd' c
  simp only [hid_congr r r' ha hs hWl hbl hWr]

/-- … with or without the final rectifier. -/
theorem layerRelu_congr {N N' O : Nat} {agg self : Mat N 128} {agg' self' : Mat N' 128} {Wl Wl' : Mat 128 128}
    {bl bl' : Fin 128 → EReal} {Wr Wr' : Mat 128 128} {Wd Wd' : Mat 128 O} {bd bd' : Fin O → EReal}
    (r : Fin N) (r' : Fin N') (c : Fin O)
    (ha : ∀ j, agg' (ix2 r' j) = agg (ix2 r j)) (hs : ∀ j, self' (ix2 r' j) = self (ix2 r j))
    (hWl : Wl' = Wl) (hbl : bl' = bl) (hWr : Wr' = Wr) (hWd : Wd' = Wd) (hbd : bd' = bd) :
    layerRelu agg' self' Wl' bl' Wr' Wd' bd' (ix2 r' c) = layerRelu agg self Wl bl Wr Wd bd (ix2 r c) := by
  unfold layerRelu
  rw [layerLin_congr r r' c ha hs hWl hbl hWr hWd hbd]

end Cert.Sage

end
-- ==== Proof.KPay.lean ====
/-
  What each kernel body stores, read at an index.

  A body loads a 5000-row block of the aggregated features and of the node's own features, the three weight matrices
  whole and the two bias rows, and stores one value: two matrix products into zero accumulators plus the broadcast
  bias row, rectified; that through the third matrix plus the second bias row, rectified again in the first two
  kernels and not in the third. The changes of float format are the identity on extended reals and a matrix product into
  a zero accumulator is the plain sum over the contracted axis, so the stored value is the specification's layer
  (`Cert.Sage.layerRelu` / `layerLin`) of the loaded blocks, with 5000 rows.
-/
import proofs.«102176_j76802605187593_1_alg».proof.Proof.Gen.KernelIdeal.Skeleton
import proofs.«102176_j76802605187593_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Body

open Cert.KernelIdeal Cert.KernelIdeal.Gen Idealize.ShloMosaic Idealize.ShloMosaic.ValueIdx Cert.Sage

section mm128
local notation "D" => dot_S5000x128_S128x128_S5000x128_1_0_0_1_n_n

theorem mm128_lhs0 (i : S5000x128.Idx) (q : (dot_S5000x128_S128x128_S5000x128_1_0_0_1_n_n).contr.Idx) : ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide), dif_pos (show (0 : Fin S5000x128.rank) ∈ (dot_S5000x128_S128x128_S5000x128_1_0_0_1_n_n).lhsNonContracting by decide)]
  rfl
theorem mm128_lhs1 (i : S5000x128.Idx) (q : (dot_S5000x128_S128x128_S5000x128_1_0_0_1_n_n).contr.Idx) : ((dot_S5000x128_S128x128_S5000x128_1_0_0_1_n_n).lhsIdx i q 1).val = (q ⟨0, by decide⟩).val :=
  (dot_S5000x128_S128x128_S5000x128_1_0_0_1_n_n).lhsIdx_val_of_single rfl i q
theorem mm128_rhs0 (i : S5000x128.Idx) (q : (dot_S5000x128_S128x128_S5000x128_1_0_0_1_n_n).contr.Idx) : ((dot_S5000x128_S128x128_S5000x128_1_0_0_1_n_n).rhsIdx i q 0).val = (q ⟨0, by decide⟩).val :=
  (dot_S5000x128_S128x128_S5000x128_1_0_0_1_n_n).rhsIdx_val_of_single rfl i q
theorem mm128_rhs1 (i : S5000x128.Idx) (q : (dot_S5000x128_S128x128_S5000x128_1_0_0_1_n_n).contr.Idx) : ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide), dif_pos (show (1 : Fin S128x128.rank) ∈ (dot_S5000x128_S128x128_S5000x128_1_0_0_1_n_n).rhsNonContracting by decide)]
  rfl

/-- The body's matrix product into a zero accumulator, at row `p` and column `q`: the sum over the contracted axis of
    the left operand's row `p` against the right operand's column `q`. -/
theorem mm128 {φ₁ φ₂ : FTy} (A : FVec Ideal S5000x128 φ₁) (B : FVec Ideal S128x128 φ₂) (p : Fin 5000) (q : Fin 128) :
    matmul (dot_S5000x128_S128x128_S5000x128_1_0_0_1_n_n) none A B (constant S5000x128 .f32 0x00000000#32) (ix2 p q) = ∑ k : Fin 128, A (ix2 p k) * B (ix2 k q) := by
  show FloatOps.matmul (dot_S5000x128_S128x128_S5000x128_1_0_0_1_n_n) none A B (constant S5000x128 .f32 0x00000000#32) (ix2 p q) = _
  rw [Ideal.matmul_constant_zero_apply, ← Equiv.sum_comp (contrEquiv1 (dot_S5000x128_S128x128_S5000x128_1_0_0_1_n_n) 128 rfl rfl).symm]
  refine Finset.sum_congr rfl fun k _ => ?_
  have hk := contrEquiv1_symm_val (dot_S5000x128_S128x128_S5000x128_1_0_0_1_n_n) 128 rfl rfl k
  have el : (dot_S5000x128_S128x128_S5000x128_1_0_0_1_n_n).lhsIdx (ix2 p q) ((contrEquiv1 (dot_S5000x128_S128x128_S5000x128_1_0_0_1_n_n) 128 rfl rfl).symm k) = ix2 p k := funext fun a => Fin.ext (by
    match a with
    | ⟨0, _⟩ => exact mm128_lhs0 _ _
    | ⟨1, _⟩ => exact (mm128_lhs1 _ _).trans hk)
  have er : (dot_S5000x128_S128x128_S5000x128_1_0_0_1_n_n).rhsIdx (ix2 p q) ((contrEquiv1 (dot_S5000x128_S128x128_S5000x128_1_0_0_1_n_n) 128 rfl rfl).symm k) = ix2 k q := funext fun a => Fin.ext (by
    match a with
    | ⟨0, _⟩ => exact (mm128_rhs0 _ _).trans hk
    | ⟨1, _⟩ => exact mm128_rhs1 _ _)
  rw [el, er]
end mm128

section mm64
local notation "D" => dot_S5000x128_S128x64_S5000x64_1_0_0_1_n_n

theorem mm64_lhs0 (i : S5000x64.Idx) (q : (dot_S5000x128_S128x64_S5000x64_1_0_0_1_n_n).contr.Idx) : ((dot_S5000x128_S128x64_S5000x64_1_0_0_1_n_n).lhsIdx i q 0).val = (i 0).val := by
  unfold DotDims.lhsIdx
  rw [dif_neg (show ¬(0 : Fin S5000x128.rank) ∈ (dot_S5000x128_S128x64_S5000x64_1_0_0_1_n_n).lhsBatch by decide), dif_pos (show (0 : Fin S5000x128.rank) ∈ (dot_S5000x128_S128x64_S5000x64_1_0_0_1_n_n).lhsNonContracting by decide)]
  rfl
theorem mm64_lhs1 (i : S5000x64.Idx) (q : (dot_S5000x128_S128x64_S5000x64_1_0_0_1_n_n).contr.Idx) : ((dot_S5000x128_S128x64_S5000x64_1_0_0_1_n_n).lhsIdx i q 1).val = (q ⟨0, by decide⟩).val :=
  (dot_S5000x128_S128x64_S5000x64_1_0_0_1_n_n).lhsIdx_val_of_single rfl i q
theorem mm64_rhs0 (i : S5000x64.Idx) (q : (dot_S5000x128_S128x64_S5000x64_1_0_0_1_n_n).contr.Idx) : ((dot_S5000x128_S128x64_S5000x64_1_0_0_1_n_n).rhsIdx i q 0).val = (q ⟨0, by decide⟩).val :=
  (dot_S5000x128_S128x64_S5000x64_1_0_0_1_n_n).rhsIdx_val_of_single rfl i q
theorem mm64_rhs1 (i : S5000x64.Idx) (q : (dot_S5000x128_S128x64_S5000x64_1_0_0_1_n_n).contr.Idx) : ((dot_S5000x128_S128x64_S5000x64_1_0_0_1_n_n).rhsIdx i q 1).val = (i 1).val := by
  unfold DotDims.rhsIdx
  rw [dif_neg (show ¬(1 : Fin S128x64.rank) ∈ (dot_S5000x128_S128x64_S5000x64_1_0_0_1_n_n).rhsBatch by decide), dif_pos (show (1 : Fin S128x64.rank) ∈ (dot_S5000x128_S128x64_S5000x64_1_0_0_1_n_n).rhsNonContracting by decide)]
  rfl

/-- The body's matrix product into a zero accumulator, at row `p` and column `q`: the sum over the contracted axis of
    the left operand's row `p` against the right operand's column `q`. -/
theorem mm64 {φ₁ φ₂ : FTy} (A : FVec Ideal S5000x128 φ₁) (B : FVec Ideal S128x64 φ₂) (p : Fin 5000) (q : Fin 64) :
    matmul (dot_S5000x128_S128x64_S5000x64_1_0_0_1_n_n) none A B (constant S5000x64 .f32 0x00000000#32) (ix2 p q) = ∑ k : Fin 128, A (ix2 p k) * B (ix2 k q) := by
  show FloatOps.matmul (dot_S5000x128_S128x64_S5000x64_1_0_0_1_n_n) none A B (constant S5000x64 .f32 0x00000000#32) (ix2 p q) = _
  rw [Ideal.matmul_constant_zero_apply, ← Equiv.sum_comp (contrEquiv1 (dot_S5000x128_S128x64_S5000x64_1_0_0_1_n_n) 128 rfl rfl).symm]
  refine Finset.sum_congr rfl fun k _ => ?_
  have hk := contrEquiv1_symm_val (dot_S5000x128_S128x64_S5000x64_1_0_0_1_n_n) 128 rfl rfl k
  have el : (dot_S5000x128_S128x64_S5000x64_1_0_0_1_n_n).lhsIdx (ix2 p q) ((contrEquiv1 (dot_S5000x128_S128x64_S5000x64_1_0_0_1_n_n) 128 rfl rfl).symm k) = ix2 p k := funext fun a => Fin.ext (by
    match a with
    | ⟨0, _⟩ => exact mm64_lhs0 _ _
    | ⟨1, _⟩ => exact (mm64_lhs1 _ _).trans hk)
  have er : (dot_S5000x128_S128x64_S5000x64_1_0_0_1_n_n).rhsIdx (ix2 p q) ((contrEquiv1 (dot_S5000x128_S128x64_S5000x64_1_0_0_1_n_n) 128 rfl rfl).symm k) = ix2 k q := funext fun a => Fin.ext (by
    match a with
    | ⟨0, _⟩ => exact (mm64_rhs0 _ _).trans hk
    | ⟨1, _⟩ => exact mm64_rhs1 _ _)
  rw [el, er]
end mm64

/-- Inside every body: the rectified sum of the two matrix products and the bias row, at row `p` and column `k`, is the
    layer's hidden activation of the blocks. -/
theorem hiddenB (x0 x1 : Vec Ideal S5000x128 .f32) (x2 x4 : Vec Ideal S128x128 .f32) (x3 : Vec Ideal S1x128 .f32)
    (p : Fin 5000) (k : Fin 128) :
    maximumf (addf (addf (matmul dot_S5000x128_S128x128_S5000x128_1_0_0_1_n_n none
        (truncf .bf16 x0 bitsLt_bf16_f32) (truncf .bf16 x2 bitsLt_bf16_f32) (constant S5000x128 .f32 0x00000000#32))
        (broadcastTo S5000x128 x3 broadcasts_S1x128_S5000x128))
        (matmul dot_S5000x128_S128x128_S5000x128_1_0_0_1_n_n none
        (truncf .bf16 x1 bitsLt_bf16_f32) (truncf .bf16 x4 bitsLt_bf16_f32) (constant S5000x128 .f32 0x00000000#32)))
      (broadcast S5000x128 (Scalar.ofBits (F := Ideal) .f32 0x00000000#32)) (ix2 p k)
    = hid (N := 5000) x0 x1 x2 (fun k => x3 (ix2 (0 : Fin 1) k)) x4 p k := by
  show max ((matmul (F := Ideal) dot_S5000x128_S128x128_S5000x128_1_0_0_1_n_n none _ _ (constant S5000x128 .f32 0x00000000#32) (ix2 p k)
      + broadcastTo (α := EReal) S5000x128 x3 broadcasts_S1x128_S5000x128 (ix2 p k))
      + matmul (F := Ideal) dot_S5000x128_S128x128_S5000x128_1_0_0_1_n_n none _ _ (constant S5000x128 .f32 0x00000000#32) (ix2 p k)) _ = _
  rw [mm128, mm128, broadcastTo_1b_ab_apply]
  rfl

/-- Body 0 stores the rectified layer of its blocks. -/
theorem pay0_eq (x0 x1 : Vec Ideal S5000x128 .f32) (x2 x4 x5 : Vec Ideal S128x128 .f32) (x3 x6 : Vec Ideal S1x128 .f32) :
    k0_pay1 x0 x1 x2 x4 x3 x5 x6
      = layerRelu (N := 5000) (O := 128) x0 x1 x2 (fun k => x3 (ix2 (0 : Fin 1) k)) x4 x5 (fun k => x6 (ix2 (0 : Fin 1) k)) := by
  funext j
  obtain ⟨p, q, rfl⟩ : ∃ (p : Fin 5000) (q : Fin 128), j = ix2 p q := ⟨j 0, j 1, eq_ix2 j⟩
  unfold k0_pay1
  simp only [shapeCast_self]
  show max (matmul (F := Ideal) dot_S5000x128_S128x128_S5000x128_1_0_0_1_n_n none _ (truncf .bf16 x5 bitsLt_bf16_f32) (constant S5000x128 .f32 0x00000000#32) (ix2 p q)
      + broadcastTo (α := EReal) S5000x128 x6 broadcasts_S1x128_S5000x128 (ix2 p q)) _ = _
  rw [mm128, broadcastTo_1b_ab_apply]
  show max ((∑ k : Fin 128, _ * x5 (ix2 k q)) + _) _ = max ((∑ k : Fin 128, hid (N := 5000) x0 x1 x2 _ x4 p k * x5 (ix2 k q)) + _) _
  simp only [← hiddenB x0 x1 x2 x4 x3 p]
  rfl

/-- Body 1 is body 0's text: the same value. -/
theorem pay1_eq (x0 x1 : Vec Ideal S5000x128 .f32) (x2 x4 x5 : Vec Ideal S128x128 .f32) (x3 x6 : Vec Ideal S1x128 .f32) :
    k1_pay1 x0 x1 x2 x4 x3 x5 x6
      = layerRelu (N := 5000) (O := 128) x0 x1 x2 (fun k => x3 (ix2 (0 : Fin 1) k)) x4 x5 (fun k => x6 (ix2 (0 : Fin 1) k)) :=
  (show k1_pay1 x0 x1 x2 x4 x3 x5 x6 = k0_pay1 x0 x1 x2 x4 x3 x5 x6 from rfl).trans (pay0_eq x0 x1 x2 x4 x5 x3 x6)

/-- Body 2 stores the layer of its blocks with no final rectifier, 64 columns wide. -/
theorem pay2_eq (x0 x1 : Vec Ideal S5000x128 .f32) (x2 x4 : Vec Ideal S128x128 .f32) (x5 : Vec Ideal S128x64 .f32)
    (x3 : Vec Ideal S1x128 .f32) (x6 : Vec Ideal S1x64 .f32) :
    k2_pay1 x0 x1 x2 x4 x3 x5 x6
      = layerLin (N := 5000) (O := 64) x0 x1 x2 (fun k => x3 (ix2 (0 : Fin 1) k)) x4 x5 (fun k => x6 (ix2 (0 : Fin 1) k)) := by
  funext j
  obtain ⟨p, q, rfl⟩ : ∃ (p : Fin 5000) (q : Fin 64), j = ix2 p q := ⟨j 0, j 1, eq_ix2 j⟩
  unfold k2_pay1
  simp only [shapeCast_self]
  show matmul (F := Ideal) dot_S5000x128_S128x64_S5000x64_1_0_0_1_n_n none _ (truncf .bf16 x5 bitsLt_bf16_f32) (constant S5000x64 .f32 0x00000000#32) (ix2 p q)
      + broadcastTo (α := EReal) S5000x64 x6 broadcasts_S1x64_S5000x64 (ix2 p q) = _
  rw [mm64, broadcastTo_1b_ab_apply]
  show (∑ k : Fin 128, _ * x5 (ix2 k q)) + _ = (∑ k : Fin 128, hid (N := 5000) x0 x1 x2 _ x4 p k * x5 (ix2 k q)) + _
  simp only [← hiddenB x0 x1 x2 x4 x3 p]
  rfl

end Cert.Sage.Body

end
-- ==== Proof.KRegion0.lean ====
/-
  Kernel region 0, as one function of the arrays it finds.

  The region walks 10 grid points; point `t` fetches rows 5000·t … 5000·t + 4999 of the aggregated features and of the
  node features, the weight matrices and bias rows whole, runs the body, and writes the stored block back to the same
  rows of the output. A row of the layer depends on the same row of the two feature arrays only, so each written block is
  the corresponding block of ONE whole-array function — the layer of the arrays as the region finds them — and the
  blocks cover the output: after the region the output array is that function.
  Everything is stated at a parameter `V`, the buffer contents when the region is entered.
-/
import proofs.«102176_j76802605187593_1_alg».proof.Proof.Gen.KernelIdeal.Frame
import proofs.«102176_j76802605187593_1_alg».proof.Proof.KPay

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-- A block's origin inside its staging buffer is (0, 0), as a constant function. -/
theorem hz : (![0, 0] : Fin 2 → Nat) = fun _ => 0 := funext fun a => by fin_cases a <;> rfl

/-- The output array after the region: the layer of the arrays the region finds. -/
def G (c : Dev nD) : S50000x128.Idx → EReal :=
  layerRelu (N := 50000) (O := 128) (V c main_v18) (V c main_arg0) (V c main_arg6) (fun k => V c main_v19 (ix2 (0 : Fin 1) k))
    (V c main_arg8) (V c main_arg15) (fun k => V c main_v20 (ix2 (0 : Fin 1) k))

/-- The printed index maps over the grid: the two feature windows and the output move one block of rows per point, the
    weights and bias rows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 10 := lt_of_lt_of_eq t.isLt N_0

/-- The array row that point `t`'s block row `p` is. -/
def row (t : Fin cfg0.N) (p : Fin 5000) : Fin 50000 := ⟨t.val * 5000 + p.val, by have := t_lt t; have := p.isLt; omega⟩

/-- Window 0 (the aggregated features) moves down the rows with the grid: element (p, k) of its block at point `t` is element
    (5000·t + p, k) of the array. -/
theorem read0 (c : Dev nD) (t : Fin cfg0.N) (p : Fin 5000) (k : Fin 128) :
    iblk0 V c 0 t (ix2 p k) = V c main_v18 (ix2 (row t p) k) := by
  obtain ⟨e00, e01, e10, e11, -⟩ := idx_facts t
  show V c main_v18 (((cfg0.win 0).blk t).view.emb (ix2 p k)) = V c main_v18 (ix2 (row t p) k)
  refine congrArg (V c main_v18) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Window 1 (the node features) moves down the rows with the grid: element (p, k) of its block at point `t` is element
    (5000·t + p, k) of the array. -/
theorem read1 (c : Dev nD) (t : Fin cfg0.N) (p : Fin 5000) (k : Fin 128) :
    iblk0 V c 1 t (ix2 p k) = V c main_arg0 (ix2 (row t p) k) := by
  obtain ⟨e00, e01, e10, e11, -⟩ := idx_facts t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- Window 2 (the weights of the aggregate) is fetched whole: its block at every point is the array. -/
theorem read2 (c : Dev nD) (t : Fin cfg0.N) : iblk0 V c 2 t = V c main_arg6 := by
  obtain ⟨-, -, -, -, -, -, e20, e21, e30, e31, e40, e41, e50, e51, e60, e61⟩ := idx_facts t
  funext y
  show V c main_arg6 (((cfg0.win 2).blk t).view.emb y) = V c main_arg6 y
  refine congrArg (V c main_arg6) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 (the first bias row) is fetched whole: its block at every point is the array. -/
theorem read3 (c : Dev nD) (t : Fin cfg0.N) : iblk0 V c 3 t = V c main_v19 := by
  obtain ⟨-, -, -, -, -, -, e20, e21, e30, e31, e40, e41, e50, e51, e60, e61⟩ := idx_facts t
  funext y
  show V c main_v19 (((cfg0.win 3).blk t).view.emb y) = V c main_v19 y
  refine congrArg (V c main_v19) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 (the weights of the node's own features) is fetched whole: its block at every point is the array. -/
theorem read4 (c : Dev nD) (t : Fin cfg0.N) : iblk0 V c 4 t = V c main_arg8 := by
  obtain ⟨-, -, -, -, -, -, e20, e21, e30, e31, e40, e41, e50, e51, e60, e61⟩ := idx_facts t
  funext y
  show V c main_arg8 (((cfg0.win 4).blk t).view.emb y) = V c main_arg8 y
  refine congrArg (V c main_arg8) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 (the weights of the dense layer) is fetched whole: its block at every point is the array. -/
theorem read5 (c : Dev nD) (t : Fin cfg0.N) : iblk0 V c 5 t = V c main_arg15 := by
  obtain ⟨-, -, -, -, -, -, e20, e21, e30, e31, e40, e41, e50, e51, e60, e61⟩ := idx_facts t
  funext y
  show V c main_arg15 (((cfg0.win 5).blk t).view.emb y) = V c main_arg15 y
  refine congrArg (V c main_arg15) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6 (the second bias row) is fetched whole: its block at every point is the array. -/
theorem read6 (c : Dev nD) (t : Fin cfg0.N) : iblk0 V c 6 t = V c main_v20 := by
  obtain ⟨-, -, -, -, -, -, e20, e21, e30, e31, e40, e41, e50, e51, e60, e61⟩ := idx_facts t
  funext y
  show V c main_v20 (((cfg0.win 6).blk t).view.emb y) = V c main_v20 y
  refine congrArg (V c main_v20) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Where the output's block at point `t` sits in the array. -/
theorem emb7 (t : Fin cfg0.N) (p : Fin 5000) (q : Fin 128) :
    ((cfg0.win 7).blk t).view.emb (ix2 p q) = ix2 (row t p) q := by
  obtain ⟨-, -, -, -, e70, e71, -⟩ := idx_facts t
  refine funext fun a => Fin.ext ?_
  match a with
  | ⟨0, _⟩ => show win0_7.index t (0 : Fin 2) * 5000 + 1 * p.val = t.val * 5000 + p.val; omega
  | ⟨1, _⟩ => show win0_7.index t (1 : Fin 2) * 128 + 1 * q.val = q.val; omega

/-- What point `t` writes back is block `t` of `G`. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  rw [Body.pay0_eq (iblk0 V c 0 t) (iblk0 V c 1 t) (iblk0 V c 2 t) (iblk0 V c 4 t) (iblk0 V c 5 t) (iblk0 V c 3 t) (iblk0 V c 6 t)]
  rw [read2 V c t, read3 V c t, read4 V c t, read5 V c t, read6 V c t]
  funext j
  obtain ⟨p, q, rfl⟩ : ∃ (p : Fin 5000) (q : Fin 128), j = ix2 p q := ⟨j 0, j 1, eq_ix2 j⟩
  show layerRelu (N := 5000) (O := 128) (iblk0 V c 0 t) (iblk0 V c 1 t) (V c main_arg6) (fun k => V c main_v19 (ix2 (0 : Fin 1) k))
      (V c main_arg8) (V c main_arg15) (fun k => V c main_v20 (ix2 (0 : Fin 1) k)) (ix2 p q)
    = G V c (((cfg0.win 7).blk t).view.emb (ix2 p q))
  rw [emb7 t p q]
  exact layerRelu_congr (row t p) p q (fun k => read0 V c t p k) (fun k => read1 V c t p k) rfl rfl rfl rfl rfl

/-- An index of the output array is in point `t`'s block iff each coordinate is in the block's range on its axis. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v21).slice (win0_7.rect t)).set ↔ _
  rw [View.set_slice_whole, Rect.mem_set_unit]
  exact Iff.rfl

/-- Every row of the output lies in the block of the point numbered by the row's quotient by 5000. -/
theorem cover (i : S50000x128.Idx) : ∃ t : Fin cfg0.N, (cfg0.win 7).flush t = true ∧ i ∈ ((cfg0.win 7).blk t).view.set := by
  have hi0 : (i 0).val < 50000 := (i 0).isLt
  have hi1 : (i 1).val < 128 := (i 1).isLt
  let t : Fin cfg0.N := ⟨(i 0).val / 5000, lt_of_lt_of_eq (by omega : (i 0).val / 5000 < 10) N_0.symm⟩
  obtain ⟨-, -, -, -, e70, e71, -⟩ := idx_facts t
  have htv : t.val = (i 0).val / 5000 := rfl
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The output array after the region is the layer of the arrays the region found. -/
theorem final (c : Dev nD) : (dat0 V c).arrAt 7 cfg0.N = G V c :=
  (dat0 V c).arrAt_eq_of_cover 7 (G V c) (fun t _ => flushed_eq V c t) (cover)

end Cert.Sage.Region0

end
-- ==== Proof.KRegion1.lean ====
/-
  Kernel region 1, as one function of the arrays it finds.

  The region walks 20 grid points; point `t` fetches rows 5000·t … 5000·t + 4999 of the aggregated features and of the
  node features, the weight matrices and bias rows whole, runs the body, and writes the stored block back to the same
  rows of the output. A row of the layer depends on the same row of the two feature arrays only, so each written block is
  the corresponding block of ONE whole-array function — the layer of the arrays as the region finds them — and the
  blocks cover the output: after the region the output array is that function.
  Everything is stated at a parameter `V`, the buffer contents when the region is entered.
-/
import proofs.«102176_j76802605187593_1_alg».proof.Proof.Gen.KernelIdeal.Frame
import proofs.«102176_j76802605187593_1_alg».proof.Proof.KPay

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-- A block's origin inside its staging buffer is (0, 0), as a constant function. -/
theorem hz : (![0, 0] : Fin 2 → Nat) = fun _ => 0 := funext fun a => by fin_cases a <;> rfl

/-- The output array after the region: the layer of the arrays the region finds. -/
def G (c : Dev nD) : S100000x128.Idx → EReal :=
  layerRelu (N := 100000) (O := 128) (V c main_v40) (V c main_arg1) (V c main_arg9) (fun k => V c main_v41 (ix2 (0 : Fin 1) k))
    (V c main_arg11) (V c main_arg17) (fun k => V c main_v42 (ix2 (0 : Fin 1) k))

/-- The printed index maps over the grid: the two feature windows and the output move one block of rows per point, the
    weights and bias rows stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem t_lt (t : Fin cfg1.N) : t.val < 20 := lt_of_lt_of_eq t.isLt N_1

/-- The array row that point `t`'s block row `p` is. -/
def row (t : Fin cfg1.N) (p : Fin 5000) : Fin 100000 := ⟨t.val * 5000 + p.val, by have := t_lt t; have := p.isLt; omega⟩

/-- Window 0 (the aggregated features) moves down the rows with the grid: element (p, k) of its block at point `t` is element
    (5000·t + p, k) of the array. -/
theorem read0 (c : Dev nD) (t : Fin cfg1.N) (p : Fin 5000) (k : Fin 128) :
    iblk1 V c 0 t (ix2 p k) = V c main_v40 (ix2 (row t p) k) := by
  obtain ⟨e00, e01, e10, e11, -⟩ := idx_facts t
  show V c main_v40 (((cfg1.win 0).blk t).view.emb (ix2 p k)) = V c main_v40 (ix2 (row t p) k)
  refine congrArg (V c main_v40) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1 (the node features) moves down the rows with the grid: element (p, k) of its block at point `t` is element
    (5000·t + p, k) of the array. -/
theorem read1 (c : Dev nD) (t : Fin cfg1.N) (p : Fin 5000) (k : Fin 128) :
    iblk1 V c 1 t (ix2 p k) = V c main_arg1 (ix2 (row t p) k) := by
  obtain ⟨e00, e01, e10, e11, -⟩ := idx_facts t
  show V c main_arg1 (((cfg1.win 1).blk t).view.emb (ix2 p k)) = V c main_arg1 (ix2 (row t p) k)
  refine congrArg (V c main_arg1) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2 (the weights of the aggregate) is fetched whole: its block at every point is the array. -/
theorem read2 (c : Dev nD) (t : Fin cfg1.N) : iblk1 V c 2 t = V c main_arg9 := by
  obtain ⟨-, -, -, -, -, -, e20, e21, e30, e31, e40, e41, e50, e51, e60, e61⟩ := idx_facts t
  funext y
  show V c main_arg9 (((cfg1.win 2).blk t).view.emb y) = V c main_arg9 y
  refine congrArg (V c main_arg9) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3 (the first bias row) is fetched whole: its block at every point is the array. -/
theorem read3 (c : Dev nD) (t : Fin cfg1.N) : iblk1 V c 3 t = V c main_v41 := by
  obtain ⟨-, -, -, -, -, -, e20, e21, e30, e31, e40, e41, e50, e51, e60, e61⟩ := idx_facts t
  funext y
  show V c main_v41 (((cfg1.win 3).blk t).view.emb y) = V c main_v41 y
  refine congrArg (V c main_v41) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4 (the weights of the node's own features) is fetched whole: its block at every point is the array. -/
theorem read4 (c : Dev nD) (t : Fin cfg1.N) : iblk1 V c 4 t = V c main_arg11 := by
  obtain ⟨-, -, -, -, -, -, e20, e21, e30, e31, e40, e41, e50, e51, e60, e61⟩ := idx_facts t
  funext y
  show V c main_arg11 (((cfg1.win 4).blk t).view.emb y) = V c main_arg11 y
  refine congrArg (V c main_arg11) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5 (the weights of the dense layer) is fetched whole: its block at every point is the array. -/
theorem read5 (c : Dev nD) (t : Fin cfg1.N) : iblk1 V c 5 t = V c main_arg17 := by
  obtain ⟨-, -, -, -, -, -, e20, e21, e30, e31, e40, e41, e50, e51, e60, e61⟩ := idx_facts t
  funext y
  show V c main_arg17 (((cfg1.win 5).blk t).view.emb y) = V c main_arg17 y
  refine congrArg (V c main_arg17) (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6 (the second bias row) is fetched whole: its block at every point is the array. -/
theorem read6 (c : Dev nD) (t : Fin cfg1.N) : iblk1 V c 6 t = V c main_v42 := by
  obtain ⟨-, -, -, -, -, -, e20, e21, e30, e31, e40, e41, e50, e51, e60, e61⟩ := idx_facts t
  funext y
  show V c main_v42 (((cfg1.win 6).blk t).view.emb y) = V c main_v42 y
  refine congrArg (V c main_v42) (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Where the output's block at point `t` sits in the array. -/
theorem emb7 (t : Fin cfg1.N) (p : Fin 5000) (q : Fin 128) :
    ((cfg1.win 7).blk t).view.emb (ix2 p q) = ix2 (row t p) q := by
  obtain ⟨-, -, -, -, e70, e71, -⟩ := idx_facts t
  refine funext fun a => Fin.ext ?_
  match a with
  | ⟨0, _⟩ => show win1_7.index t (0 : Fin 2) * 5000 + 1 * p.val = t.val * 5000 + p.val; omega
  | ⟨1, _⟩ => show win1_7.index t (1 : Fin 2) * 128 + 1 * q.val = q.val; omega

/-- What point `t` writes back is block `t` of `G`. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [Body.pay1_eq (iblk1 V c 0 t) (iblk1 V c 1 t) (iblk1 V c 2 t) (iblk1 V c 4 t) (iblk1 V c 5 t) (iblk1 V c 3 t) (iblk1 V c 6 t)]
  rw [read2 V c t, read3 V c t, read4 V c t, read5 V c t, read6 V c t]
  funext j
  obtain ⟨p, q, rfl⟩ : ∃ (p : Fin 5000) (q : Fin 128), j = ix2 p q := ⟨j 0, j 1, eq_ix2 j⟩
  show layerRelu (N := 5000) (O := 128) (iblk1 V c 0 t) (iblk1 V c 1 t) (V c main_arg9) (fun k => V c main_v41 (ix2 (0 : Fin 1) k))
      (V c main_arg11) (V c main_arg17) (fun k => V c main_v42 (ix2 (0 : Fin 1) k)) (ix2 p q)
    = G V c (((cfg1.win 7).blk t).view.emb (ix2 p q))
  rw [emb7 t p q]
  exact layerRelu_congr (row t p) p q (fun k => read0 V c t p k) (fun k => read1 V c t p k) rfl rfl rfl rfl rfl

/-- An index of the output array is in point `t`'s block iff each coordinate is in the block's range on its axis. -/
theorem mem_blk (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v43).slice (win1_7.rect t)).set ↔ _
  rw [View.set_slice_whole, Rect.mem_set_unit]
  exact Iff.rfl

/-- Every row of the output lies in the block of the point numbered by the row's quotient by 5000. -/
theorem cover (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  let t : Fin cfg1.N := ⟨(i 0).val / 5000, lt_of_lt_of_eq (by omega : (i 0).val / 5000 < 20) N_1.symm⟩
  obtain ⟨-, -, -, -, e70, e71, -⟩ := idx_facts t
  have htv : t.val = (i 0).val / 5000 := rfl
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The output array after the region is the layer of the arrays the region found. -/
theorem final (c : Dev nD) : (dat1 V c).arrAt 7 cfg1.N = G V c :=
  (dat1 V c).arrAt_eq_of_cover 7 (G V c) (fun t _ => flushed_eq V c t) (cover)

end Cert.Sage.Region1

end
-- ==== Proof.KRegion2.lean ====
/-
  Kernel region 2, as one function of the arrays it finds.

  The region walks 20 grid points; point `t` fetches rows 5000·t … 5000·t + 4999 of the aggregated features and of the
  node features, the weight matrices and bias rows whole, runs the body, and writes the stored block back to the same
  rows of the output. A row of the layer depends on the same row of the two feature arrays only, so each written block is
  the corresponding block of ONE whole-array function — the layer of the arrays as the region finds them — and the
  blocks cover the output: after the region the output array is that function.
  Everything is stated at a parameter `V`, the buffer contents when the region is entered.
-/
import proofs.«102176_j76802605187593_1_alg».proof.Proof.Gen.KernelIdeal.Frame
import proofs.«102176_j76802605187593_1_alg».proof.Proof.KPay

set_option maxRecDepth 16384

noncomputable section

namespace Cert.Sage.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

/-- A block's origin inside its staging buffer is (0, 0), as a constant function. -/
theorem hz : (![0, 0] : Fin 2 → Nat) = fun _ => 0 := funext fun a => by fin_cases a <;> rfl

/-- The output array after the region: the layer of the arrays the region finds. -/
def G (c : Dev nD) : S100000x64.Idx → EReal :=
  layerLin (N := 100000) (O := 64) (V c main_v62) (V c main_v43) (V c main_arg12) (fun k => V c main_v63 (ix2 (0 : Fin 1) k))
    (V c main_arg14) (V c main_arg19) (fun k => V c main_v64 (ix2 (0 : Fin 1) k))

/-- The printed index maps over the grid: the two feature windows and the output move one block of rows per point, the
    weights and bias rows stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem t_lt (t : Fin cfg2.N) : t.val < 20 := lt_of_lt_of_eq t.isLt N_2

/-- The array row that point `t`'s block row `p` is. -/
def row (t : Fin cfg2.N) (p : Fin 5000) : Fin 100000 := ⟨t.val * 5000 + p.val, by have := t_lt t; have := p.isLt; omega⟩

/-- Window 0 (the aggregated features) moves down the rows with the grid: element (p, k) of its block at point `t` is element
    (5000·t + p, k) of the array. -/
theorem read0 (c : Dev nD) (t : Fin cfg2.N) (p : Fin 5000) (k : Fin 128) :
    iblk2 V c 0 t (ix2 p k) = V c main_v62 (ix2 (row t p) k) := by
  obtain ⟨e00, e01, e10, e11, -⟩ := idx_facts t
  show V c main_v62 (((cfg2.win 0).blk t).view.emb (ix2 p k)) = V c main_v62 (ix2 (row t p) k)
  refine congrArg (V c main_v62) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- Window 1 (the node features) moves down the rows with the grid: element (p, k) of its block at point `t` is element
    (5000·t + p, k) of the array. -/
theorem read1 (c : Dev nD) (t : Fin cfg2.N) (p : Fin 5000) (k : Fin 128) :
    iblk2 V c 1 t (ix2 p k) = V c main_v43 (ix2 (row t p) k) := by
  obtain ⟨e00, e01, e10, e11, -⟩ := idx_facts t
  show V c main_v43 (((cfg2.win 1).blk t).view.emb (ix2 p k)) = V c main_v43 (ix2 (row t p) k)
  refine congrArg (V c main_v43) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- Window 2 (the weights of the aggregate) is fetched whole: its block at every point is the array. -/
theorem read2 (c : Dev nD) (t : Fin cfg2.N) : iblk2 V c 2 t = V c main_arg12 := by
  obtain ⟨-, -, -, -, -, -, e20, e21, e30, e31, e40, e41, e50, e51, e60, e61⟩ := idx_facts t
  funext y
  show V c main_arg12 (((cfg2.win 2).blk t).view.emb y) = V c main_arg12 y
  refine congrArg (V c main_arg12) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Window 3 (the first bias row) is fetched whole: its block at every point is the array. -/
theorem read3 (c : Dev nD) (t : Fin cfg2.N) : iblk2 V c 3 t = V c main_v63 := by
  obtain ⟨-, -, -, -, -, -, e20, e21, e30, e31, e40, e41, e50, e51, e60, e61⟩ := idx_facts t
  funext y
  show V c main_v63 (((cfg2.win 3).blk t).view.emb y) = V c main_v63 y
  refine congrArg (V c main_v63) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4 (the weights of the node's own features) is fetched whole: its block at every point is the array. -/
theorem read4 (c : Dev nD) (t : Fin cfg2.N) : iblk2 V c 4 t = V c main_arg14 := by
  obtain ⟨-, -, -, -, -, -, e20, e21, e30, e31, e40, e41, e50, e51, e60, e61⟩ := idx_facts t
  funext y
  show V c main_arg14 (((cfg2.win 4).blk t).view.emb y) = V c main_arg14 y
  refine congrArg (V c main_arg14) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- Window 5 (the weights of the dense layer) is fetched whole: its block at every point is the array. -/
theorem read5 (c : Dev nD) (t : Fin cfg2.N) : iblk2 V c 5 t = V c main_arg19 := by
  obtain ⟨-, -, -, -, -, -, e20, e21, e30, e31, e40, e41, e50, e51, e60, e61⟩ := idx_facts t
  funext y
  show V c main_arg19 (((cfg2.win 5).blk t).view.emb y) = V c main_arg19 y
  refine congrArg (V c main_arg19) (funext fun a => Fin.ext ?_)
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- Window 6 (the second bias row) is fetched whole: its block at every point is the array. -/
theorem read6 (c : Dev nD) (t : Fin cfg2.N) : iblk2 V c 6 t = V c main_v64 := by
  obtain ⟨-, -, -, -, -, -, e20, e21, e30, e31, e40, e41, e50, e51, e60, e61⟩ := idx_facts t
  funext y
  show V c main_v64 (((cfg2.win 6).blk t).view.emb y) = V c main_v64 y
  refine congrArg (V c main_v64) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- Where the output's block at point `t` sits in the array. -/
theorem emb7 (t : Fin cfg2.N) (p : Fin 5000) (q : Fin 64) :
    ((cfg2.win 7).blk t).view.emb (ix2 p q) = ix2 (row t p) q := by
  obtain ⟨-, -, -, -, e70, e71, -⟩ := idx_facts t
  refine funext fun a => Fin.ext ?_
  match a with
  | ⟨0, _⟩ => show win2_7.index t (0 : Fin 2) * 5000 + 1 * p.val = t.val * 5000 + p.val; omega
  | ⟨1, _⟩ => show win2_7.index t (1 : Fin 2) * 64 + 1 * q.val = q.val; omega

/-- What point `t` writes back is block `t` of `G`. -/
theorem flushed_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz, View.ld_unit_zero (S := S128x64) hz, View.ld_unit_zero (S := S1x64) hz]
  rw [Body.pay2_eq (iblk2 V c 0 t) (iblk2 V c 1 t) (iblk2 V c 2 t) (iblk2 V c 4 t) (iblk2 V c 5 t) (iblk2 V c 3 t) (iblk2 V c 6 t)]
  rw [read2 V c t, read3 V c t, read4 V c t, read5 V c t, read6 V c t]
  funext j
  obtain ⟨p, q, rfl⟩ : ∃ (p : Fin 5000) (q : Fin 64), j = ix2 p q := ⟨j 0, j 1, eq_ix2 j⟩
  show layerLin (N := 5000) (O := 64) (iblk2 V c 0 t) (iblk2 V c 1 t) (V c main_arg12) (fun k => V c main_v63 (ix2 (0 : Fin 1) k))
      (V c main_arg14) (V c main_arg19) (fun k => V c main_v64 (ix2 (0 : Fin 1) k)) (ix2 p q)
    = G V c (((cfg2.win 7).blk t).view.emb (ix2 p q))
  rw [emb7 t p q]
  exact layerLin_congr (row t p) p q (fun k => read0 V c t p k) (fun k => read1 V c t p k) rfl rfl rfl rfl rfl

/-- An index of the output array is in point `t`'s block iff each coordinate is in the block's range on its axis. -/
theorem mem_blk (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v65).slice (win2_7.rect t)).set ↔ _
  rw [View.set_slice_whole, Rect.mem_set_unit]
  exact Iff.rfl

/-- Every row of the output lies in the block of the point numbered by the row's quotient by 5000. -/
theorem cover (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  let t : Fin cfg2.N := ⟨(i 0).val / 5000, lt_of_lt_of_eq (by omega : (i 0).val / 5000 < 20) N_2.symm⟩
  obtain ⟨-, -, -, -, e70, e71, -⟩ := idx_facts t
  have htv : t.val = (i 0).val / 5000 := rfl
  refine ⟨t, flush2_7 t, ?_⟩
  rw [mem_blk]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 64 ≤ (i 1).val ∧ (i 1).val < win2_7.index t (1 : Fin 2) * 64 + 64; omega

/-- The output array after the region is the layer of the arrays the region found. -/
theorem final (c : Dev nD) : (dat2 V c).arrAt 7 cfg2.N = G V c :=
  (dat2 V c).arrAt_eq_of_cover 7 (G V c) (fun t _ => flushed_eq V c t) (cover)

end Cert.Sage.Region2

end
-- ==== Proof.KHost.lean ====
/-
  The host operations between the kernel regions, read.

  Before each region the host computes a neighbour mean (index normalisation, a gather of rows, a scatter-add of the
  gathered rows and of ones, a maximum of the count with one, a division) and reshapes two bias vectors into rows. The
  mean is never opened here: it is carried as one function of the feature array and the two edge lists (`meanM` over
  the 800000 movie–movie edges into 50000 rows, `meanU` over the 1600000 movie–user edges into 100000 rows), because
  the reference applies the very same operations. What is proved is bookkeeping: each operand a region is entered with
  is the mean of the right arrays, an argument as launched (no host operation and no region writes an argument), a bias
  row whose column k is the bias vector's entry k, or an earlier region's output array.
-/
import proofs.«102176_j76802605187593_1_alg».proof.Proof.Gen.KernelIdeal.Frame
import proofs.«102176_j76802605187593_1_alg».proof.Proof.KMean
import proofs.«102176_j76802605187593_1_alg».proof.Proof.LibRowRead
import proofs.«102176_j76802605187593_1_alg».proof.Proof.KRegion0
import proofs.«102176_j76802605187593_1_alg».proof.Proof.KRegion1
import proofs.«102176_j76802605187593_1_alg».proof.Proof.KRegion2
import Idealize.ShloMosaic.Lib.StableHlo.Run
import Idealize.ShloMosaic.Lib.Pipeline.Value
import Idealize.ShloMosaic.Lib.ValueIdx

set_option maxRecDepth 16384

noncomputable section

namespace Cert.Sage.Host

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Sage

variable (m : (ℓ : Loc nD τ sig) → Buf (Elt Ideal) ℓ) (ρ : Dev nD → PrngReg)

/-! ## The arguments reach every boundary as launched -/

theorem a1_0 (c : Dev nD) : W1 m ρ c (Proc.devRef .tc main_arg0) = m ((c : Thread nD τ).loc main_arg0) := by
  show StableHlo.after hostOps0 (W0 m ρ c) (Proc.devRef .tc main_arg0) = _
  after_results_simp <;> rfl
theorem a1_1 (c : Dev nD) : W1 m ρ c (Proc.devRef .tc main_arg1) = m ((c : Thread nD τ).loc main_arg1) := by
  show StableHlo.after hostOps0 (W0 m ρ c) (Proc.devRef .tc main_arg1) = _
  after_results_simp <;> rfl
theorem a1_4 (c : Dev nD) : W1 m ρ c (Proc.devRef .tc main_arg4) = m ((c : Thread nD τ).loc main_arg4) := by
  show StableHlo.after hostOps0 (W0 m ρ c) (Proc.devRef .tc main_arg4) = _
  after_results_simp <;> rfl
theorem a1_5 (c : Dev nD) : W1 m ρ c (Proc.devRef .tc main_arg5) = m ((c : Thread nD τ).loc main_arg5) := by
  show StableHlo.after hostOps0 (W0 m ρ c) (Proc.devRef .tc main_arg5) = _
  after_results_simp <;> rfl
theorem a1_6 (c : Dev nD) : W1 m ρ c (Proc.devRef .tc main_arg6) = m ((c : Thread nD τ).loc main_arg6) := by
  show StableHlo.after hostOps0 (W0 m ρ c) (Proc.devRef .tc main_arg6) = _
  after_results_simp <;> rfl
theorem a1_8 (c : Dev nD) : W1 m ρ c (Proc.devRef .tc main_arg8) = m ((c : Thread nD τ).loc main_arg8) := by
  show StableHlo.after hostOps0 (W0 m ρ c) (Proc.devRef .tc main_arg8) = _
  after_results_simp <;> rfl
theorem a1_9 (c : Dev nD) : W1 m ρ c (Proc.devRef .tc main_arg9) = m ((c : Thread nD τ).loc main_arg9) := by
  show StableHlo.after hostOps0 (W0 m ρ c) (Proc.devRef .tc main_arg9) = _
  after_results_simp <;> rfl
theorem a1_10 (c : Dev nD) : W1 m ρ c (Proc.devRef .tc main_arg10) = m ((c : Thread nD τ).loc main_arg10) := by
  show StableHlo.after hostOps0 (W0 m ρ c) (Proc.devRef .tc main_arg10) = _
  after_results_simp <;> rfl
theorem a1_11 (c : Dev nD) : W1 m ρ c (Proc.devRef .tc main_arg11) = m ((c : Thread nD τ).loc main_arg11) := by
  show StableHlo.after hostOps0 (W0 m ρ c) (Proc.devRef .tc main_arg11) = _
  after_results_simp <;> rfl
theorem a1_12 (c : Dev nD) : W1 m ρ c (Proc.devRef .tc main_arg12) = m ((c : Thread nD τ).loc main_arg12) := by
  show StableHlo.after hostOps0 (W0 m ρ c) (Proc.devRef .tc main_arg12) = _
  after_results_simp <;> rfl
theorem a1_13 (c : Dev nD) : W1 m ρ c (Proc.devRef .tc main_arg13) = m ((c : Thread nD τ).loc main_arg13) := by
  show StableHlo.after hostOps0 (W0 m ρ c) (Proc.devRef .tc main_arg13) = _
  after_results_simp <;> rfl
theorem a1_14 (c : Dev nD) : W1 m ρ c (Proc.devRef .tc main_arg14) = m ((c : Thread nD τ).loc main_arg14) := by
  show StableHlo.after hostOps0 (W0 m ρ c) (Proc.devRef .tc main_arg14) = _
  after_results_simp <;> rfl
theorem a1_15 (c : Dev nD) : W1 m ρ c (Proc.devRef .tc main_arg15) = m ((c : Thread nD τ).loc main_arg15) := by
  show StableHlo.after hostOps0 (W0 m ρ c) (Proc.devRef .tc main_arg15) = _
  after_results_simp <;> rfl
theorem a1_17 (c : Dev nD) : W1 m ρ c (Proc.devRef .tc main_arg17) = m ((c : Thread nD τ).loc main_arg17) := by
  show StableHlo.after hostOps0 (W0 m ρ c) (Proc.devRef .tc main_arg17) = _
  after_results_simp <;> rfl
theorem a1_18 (c : Dev nD) : W1 m ρ c (Proc.devRef .tc main_arg18) = m ((c : Thread nD τ).loc main_arg18) := by
  show StableHlo.after hostOps0 (W0 m ρ c) (Proc.devRef .tc main_arg18) = _
  after_results_simp <;> rfl
theorem a1_19 (c : Dev nD) : W1 m ρ c (Proc.devRef .tc main_arg19) = m ((c : Thread nD τ).loc main_arg19) := by
  show StableHlo.after hostOps0 (W0 m ρ c) (Proc.devRef .tc main_arg19) = _
  after_results_simp <;> rfl
theorem a1_20 (c : Dev nD) : W1 m ρ c (Proc.devRef .tc main_arg20) = m ((c : Thread nD τ).loc main_arg20) := by
  show StableHlo.after hostOps0 (W0 m ρ c) (Proc.devRef .tc main_arg20) = _
  after_results_simp <;> rfl
theorem a2_0 (c : Dev nD) : W2 m ρ c (Proc.devRef .tc main_arg0) = m ((c : Thread nD τ).loc main_arg0) :=
  ((W2_arr m ρ c 1).trans (((dat0 (V1 m ρ) c).arrAt_in 1 rfl _).trans (A_eq0 (V1 m ρ) c 1))).trans (a1_0 m ρ c)
theorem a2_1 (c : Dev nD) : W2 m ρ c (Proc.devRef .tc main_arg1) = m ((c : Thread nD τ).loc main_arg1) :=
  (W2_of_ne m ρ c main_arg1 (by decide)).trans (a1_1 m ρ c)
theorem a2_4 (c : Dev nD) : W2 m ρ c (Proc.devRef .tc main_arg4) = m ((c : Thread nD τ).loc main_arg4) :=
  (W2_of_ne m ρ c main_arg4 (by decide)).trans (a1_4 m ρ c)
theorem a2_5 (c : Dev nD) : W2 m ρ c (Proc.devRef .tc main_arg5) = m ((c : Thread nD τ).loc main_arg5) :=
  (W2_of_ne m ρ c main_arg5 (by decide)).trans (a1_5 m ρ c)
theorem a2_6 (c : Dev nD) : W2 m ρ c (Proc.devRef .tc main_arg6) = m ((c : Thread nD τ).loc main_arg6) :=
  ((W2_arr m ρ c 2).trans (((dat0 (V1 m ρ) c).arrAt_in 2 rfl _).trans (A_eq0 (V1 m ρ) c 2))).trans (a1_6 m ρ c)
theorem a2_8 (c : Dev nD) : W2 m ρ c (Proc.devRef .tc main_arg8) = m ((c : Thread nD τ).loc main_arg8) :=
  ((W2_arr m ρ c 4).trans (((dat0 (V1 m ρ) c).arrAt_in 4 rfl _).trans (A_eq0 (V1 m ρ) c 4))).trans (a1_8 m ρ c)
theorem a2_9 (c : Dev nD) : W2 m ρ c (Proc.devRef .tc main_arg9) = m ((c : Thread nD τ).loc main_arg9) :=
  (W2_of_ne m ρ c main_arg9 (by decide)).trans (a1_9 m ρ c)
theorem a2_10 (c : Dev nD) : W2 m ρ c (Proc.devRef .tc main_arg10) = m ((c : Thread nD τ).loc main_arg10) :=
  (W2_of_ne m ρ c main_arg10 (by decide)).trans (a1_10 m ρ c)
theorem a2_11 (c : Dev nD) : W2 m ρ c (Proc.devRef .tc main_arg11) = m ((c : Thread nD τ).loc main_arg11) :=
  (W2_of_ne m ρ c main_arg11 (by decide)).trans (a1_11 m ρ c)
theorem a2_12 (c : Dev nD) : W2 m ρ c (Proc.devRef .tc main_arg12) = m ((c : Thread nD τ).loc main_arg12) :=
  (W2_of_ne m ρ c main_arg12 (by decide)).trans (a1_12 m ρ c)
theorem a2_13 (c : Dev nD) : W2 m ρ c (Proc.devRef .tc main_arg13) = m ((c : Thread nD τ).loc main_arg13) :=
  (W2_of_ne m ρ c main_arg13 (by decide)).trans (a1_13 m ρ c)
theorem a2_14 (c : Dev nD) : W2 m ρ c (Proc.devRef .tc main_arg14) = m ((c : Thread nD τ).loc main_arg14) :=
  (W2_of_ne m ρ c main_arg14 (by decide)).trans (a1_14 m ρ c)
theorem a2_15 (c : Dev nD) : W2 m ρ c (Proc.devRef .tc main_arg15) = m ((c : Thread nD τ).loc main_arg15) :=
  ((W2_arr m ρ c 5).trans (((dat0 (V1 m ρ) c).arrAt_in 5 rfl _).trans (A_eq0 (V1 m ρ) c 5))).trans (a1_15 m ρ c)
theorem a2_17 (c : Dev nD) : W2 m ρ c (Proc.devRef .tc main_arg17) = m ((c : Thread nD τ).loc main_arg17) :=
  (W2_of_ne m ρ c main_arg17 (by decide)).trans (a1_17 m ρ c)
theorem a2_18 (c : Dev nD) : W2 m ρ c (Proc.devRef .tc main_arg18) = m ((c : Thread nD τ).loc main_arg18) :=
  (W2_of_ne m ρ c main_arg18 (by decide)).trans (a1_18 m ρ c)
theorem a2_19 (c : Dev nD) : W2 m ρ c (Proc.devRef .tc main_arg19) = m ((c : Thread nD τ).loc main_arg19) :=
  (W2_of_ne m ρ c main_arg19 (by decide)).trans (a1_19 m ρ c)
theorem a2_20 (c : Dev nD) : W2 m ρ c (Proc.devRef .tc main_arg20) = m ((c : Thread nD τ).loc main_arg20) :=
  (W2_of_ne m ρ c main_arg20 (by decide)).trans (a1_20 m ρ c)
theorem a3_1 (c : Dev nD) : W3 m ρ c (Proc.devRef .tc main_arg1) = m ((c : Thread nD τ).loc main_arg1) := by
  refine Eq.trans ?_ (a2_1 m ρ c)
  show StableHlo.after hostOps1 (W2 m ρ c) (Proc.devRef .tc main_arg1) = _
  after_results_simp <;> rfl
theorem a3_4 (c : Dev nD) : W3 m ρ c (Proc.devRef .tc main_arg4) = m ((c : Thread nD τ).loc main_arg4) := by
  refine Eq.trans ?_ (a2_4 m ρ c)
  show StableHlo.after hostOps1 (W2 m ρ c) (Proc.devRef .tc main_arg4) = _
  after_results_simp <;> rfl
theorem a3_5 (c : Dev nD) : W3 m ρ c (Proc.devRef .tc main_arg5) = m ((c : Thread nD τ).loc main_arg5) := by
  refine Eq.trans ?_ (a2_5 m ρ c)
  show StableHlo.after hostOps1 (W2 m ρ c) (Proc.devRef .tc main_arg5) = _
  after_results_simp <;> rfl
theorem a3_9 (c : Dev nD) : W3 m ρ c (Proc.devRef .tc main_arg9) = m ((c : Thread nD τ).loc main_arg9) := by
  refine Eq.trans ?_ (a2_9 m ρ c)
  show StableHlo.after hostOps1 (W2 m ρ c) (Proc.devRef .tc main_arg9) = _
  after_results_simp <;> rfl
theorem a3_10 (c : Dev nD) : W3 m ρ c (Proc.devRef .tc main_arg10) = m ((c : Thread nD τ).loc main_arg10) := by
  refine Eq.trans ?_ (a2_10 m ρ c)
  show StableHlo.after hostOps1 (W2 m ρ c) (Proc.devRef .tc main_arg10) = _
  after_results_simp <;> rfl
theorem a3_11 (c : Dev nD) : W3 m ρ c (Proc.devRef .tc main_arg11) = m ((c : Thread nD τ).loc main_arg11) := by
  refine Eq.trans ?_ (a2_11 m ρ c)
  show StableHlo.after hostOps1 (W2 m ρ c) (Proc.devRef .tc main_arg11) = _
  after_results_simp <;> rfl
theorem a3_12 (c : Dev nD) : W3 m ρ c (Proc.devRef .tc main_arg12) = m ((c : Thread nD τ).loc main_arg12) := by
  refine Eq.trans ?_ (a2_12 m ρ c)
  show StableHlo.after hostOps1 (W2 m ρ c) (Proc.devRef .tc main_arg12) = _
  after_results_simp <;> rfl
theorem a3_13 (c : Dev nD) : W3 m ρ c (Proc.devRef .tc main_arg13) = m ((c : Thread nD τ).loc main_arg13) := by
  refine Eq.trans ?_ (a2_13 m ρ c)
  show StableHlo.after hostOps1 (W2 m ρ c) (Proc.devRef .tc main_arg13) = _
  after_results_simp <;> rfl
theorem a3_14 (c : Dev nD) : W3 m ρ c (Proc.devRef .tc main_arg14) = m ((c : Thread nD τ).loc main_arg14) := by
  refine Eq.trans ?_ (a2_14 m ρ c)
  show StableHlo.after hostOps1 (W2 m ρ c) (Proc.devRef .tc main_arg14) = _
  after_results_simp <;> rfl
theorem a3_17 (c : Dev nD) : W3 m ρ c (Proc.devRef .tc main_arg17) = m ((c : Thread nD τ).loc main_arg17) := by
  refine Eq.trans ?_ (a2_17 m ρ c)
  show StableHlo.after hostOps1 (W2 m ρ c) (Proc.devRef .tc main_arg17) = _
  after_results_simp <;> rfl
theorem a3_18 (c : Dev nD) : W3 m ρ c (Proc.devRef .tc main_arg18) = m ((c : Thread nD τ).loc main_arg18) := by
  refine Eq.trans ?_ (a2_18 m ρ c)
  show StableHlo.after hostOps1 (W2 m ρ c) (Proc.devRef .tc main_arg18) = _
  after_results_simp <;> rfl
theorem a3_19 (c : Dev nD) : W3 m ρ c (Proc.devRef .tc main_arg19) = m ((c : Thread nD τ).loc main_arg19) := by
  refine Eq.trans ?_ (a2_19 m ρ c)
  show StableHlo.after hostOps1 (W2 m ρ c) (Proc.devRef .tc main_arg19) = _
  after_results_simp <;> rfl
theorem a3_20 (c : Dev nD) : W3 m ρ c (Proc.devRef .tc main_arg20) = m ((c : Thread nD τ).loc main_arg20) := by
  refine Eq.trans ?_ (a2_20 m ρ c)
  show StableHlo.after hostOps1 (W2 m ρ c) (Proc.devRef .tc main_arg20) = _
  after_results_simp <;> rfl
theorem a4_4 (c : Dev nD) : W4 m ρ c (Proc.devRef .tc main_arg4) = m ((c : Thread nD τ).loc main_arg4) :=
  (W4_of_ne m ρ c main_arg4 (by decide)).trans (a3_4 m ρ c)
theorem a4_5 (c : Dev nD) : W4 m ρ c (Proc.devRef .tc main_arg5) = m ((c : Thread nD τ).loc main_arg5) :=
  (W4_of_ne m ρ c main_arg5 (by decide)).trans (a3_5 m ρ c)
theorem a4_12 (c : Dev nD) : W4 m ρ c (Proc.devRef .tc main_arg12) = m ((c : Thread nD τ).loc main_arg12) :=
  (W4_of_ne m ρ c main_arg12 (by decide)).trans (a3_12 m ρ c)
theorem a4_13 (c : Dev nD) : W4 m ρ c (Proc.devRef .tc main_arg13) = m ((c : Thread nD τ).loc main_arg13) :=
  (W4_of_ne m ρ c main_arg13 (by decide)).trans (a3_13 m ρ c)
theorem a4_14 (c : Dev nD) : W4 m ρ c (Proc.devRef .tc main_arg14) = m ((c : Thread nD τ).loc main_arg14) :=
  (W4_of_ne m ρ c main_arg14 (by decide)).trans (a3_14 m ρ c)
theorem a4_19 (c : Dev nD) : W4 m ρ c (Proc.devRef .tc main_arg19) = m ((c : Thread nD τ).loc main_arg19) :=
  (W4_of_ne m ρ c main_arg19 (by decide)).trans (a3_19 m ρ c)
theorem a4_20 (c : Dev nD) : W4 m ρ c (Proc.devRef .tc main_arg20) = m ((c : Thread nD τ).loc main_arg20) :=
  (W4_of_ne m ρ c main_arg20 (by decide)).trans (a3_20 m ρ c)
theorem a5_12 (c : Dev nD) : W5 m ρ c (Proc.devRef .tc main_arg12) = m ((c : Thread nD τ).loc main_arg12) := by
  refine Eq.trans ?_ (a4_12 m ρ c)
  show StableHlo.after hostOps2 (W4 m ρ c) (Proc.devRef .tc main_arg12) = _
  after_results_simp <;> rfl
theorem a5_14 (c : Dev nD) : W5 m ρ c (Proc.devRef .tc main_arg14) = m ((c : Thread nD τ).loc main_arg14) := by
  refine Eq.trans ?_ (a4_14 m ρ c)
  show StableHlo.after hostOps2 (W4 m ρ c) (Proc.devRef .tc main_arg14) = _
  after_results_simp <;> rfl
theorem a5_19 (c : Dev nD) : W5 m ρ c (Proc.devRef .tc main_arg19) = m ((c : Thread nD τ).loc main_arg19) := by
  refine Eq.trans ?_ (a4_19 m ρ c)
  show StableHlo.after hostOps2 (W4 m ρ c) (Proc.devRef .tc main_arg19) = _
  after_results_simp <;> rfl

/-! ## Region 0 is entered with the movie mean, the movie features, its weights and bias rows -/

theorem s0_mean (c : Dev nD) : V1 m ρ c main_v18 = meanM (m ((c : Thread nD τ).loc main_arg0)) (m ((c : Thread nD τ).loc main_arg2)) (m ((c : Thread nD τ).loc main_arg3)) := by
  show StableHlo.after hostOps0 (W0 m ρ c) (Proc.devRef .tc main_v18) = _
  after_results_simp <;> (unfold meanM; rfl)
theorem s0_arg0 (c : Dev nD) : V1 m ρ c main_arg0 = m ((c : Thread nD τ).loc main_arg0) := a1_0 m ρ c
theorem s0_arg6 (c : Dev nD) : V1 m ρ c main_arg6 = m ((c : Thread nD τ).loc main_arg6) := a1_6 m ρ c
theorem s0_arg8 (c : Dev nD) : V1 m ρ c main_arg8 = m ((c : Thread nD τ).loc main_arg8) := a1_8 m ρ c
theorem s0_arg15 (c : Dev nD) : V1 m ρ c main_arg15 = m ((c : Thread nD τ).loc main_arg15) := a1_15 m ρ c

theorem s0_b7 (c : Dev nD) (k : Fin 128) :
    V1 m ρ c main_v19 (ix2 (0 : Fin 1) k) = m ((c : Thread nD τ).loc main_arg7) (ix1 k) := by
  have e : V1 m ρ c main_v19 = shapeCast S1x128 (W0 m ρ c (Proc.devRef .tc main_arg7)) shapeCasts_S128_S1x128 := by
    show StableHlo.after hostOps0 (W0 m ρ c) (Proc.devRef .tc main_v19) = _
    after_results_simp <;> rfl
  rw [e]
  exact Cert.Lib.RowRead.row_read _ _ k

theorem s0_b16 (c : Dev nD) (k : Fin 128) :
    V1 m ρ c main_v20 (ix2 (0 : Fin 1) k) = m ((c : Thread nD τ).loc main_arg16) (ix1 k) := by
  have e : V1 m ρ c main_v20 = shapeCast S1x128 (W0 m ρ c (Proc.devRef .tc main_arg16)) shapeCasts_S128_S1x128 := by
    show StableHlo.after hostOps0 (W0 m ρ c) (Proc.devRef .tc main_v20) = _
    after_results_simp <;> rfl
  rw [e]
  exact Cert.Lib.RowRead.row_read _ _ k

/-- After region 0 its output array is the first layer of the launch arrays. -/
theorem out0 (c : Dev nD) : W2 m ρ c (Proc.devRef .tc main_v21)
    = layerRelu (N := 50000) (O := 128) (meanM (m ((c : Thread nD τ).loc main_arg0)) (m ((c : Thread nD τ).loc main_arg2)) (m ((c : Thread nD τ).loc main_arg3))) (m ((c : Thread nD τ).loc main_arg0)) (m ((c : Thread nD τ).loc main_arg6)) (fun k => (m ((c : Thread nD τ).loc main_arg7)) (ix1 k)) (m ((c : Thread nD τ).loc main_arg8)) (m ((c : Thread nD τ).loc main_arg15)) (fun k => (m ((c : Thread nD τ).loc main_arg16)) (ix1 k)) := by
  refine ((W2_arr m ρ c 7).trans (Region0.final (V1 m ρ) c)).trans ?_
  unfold Region0.G
  rw [s0_mean m ρ c, s0_arg0 m ρ c, s0_arg6 m ρ c, s0_arg8 m ρ c, s0_arg15 m ρ c]
  simp only [s0_b7 m ρ c, s0_b16 m ρ c]

/-! ## Region 1 is entered with the user mean of the movie features, the user features, its weights and bias rows -/

theorem s1_mean (c : Dev nD) : V3 m ρ c main_v40 = meanU (m ((c : Thread nD τ).loc main_arg0)) (m ((c : Thread nD τ).loc main_arg4)) (m ((c : Thread nD τ).loc main_arg5)) := by
  have e : V3 m ρ c main_v40 = meanU (W2 m ρ c (Proc.devRef .tc main_arg0)) (W2 m ρ c (Proc.devRef .tc main_arg4)) (W2 m ρ c (Proc.devRef .tc main_arg5)) := by
    show StableHlo.after hostOps1 (W2 m ρ c) (Proc.devRef .tc main_v40) = _
    after_results_simp <;> (unfold meanU; rfl)
  rw [e, a2_0 m ρ c, a2_4 m ρ c, a2_5 m ρ c]
theorem s1_arg1 (c : Dev nD) : V3 m ρ c main_arg1 = m ((c : Thread nD τ).loc main_arg1) := a3_1 m ρ c
theorem s1_arg9 (c : Dev nD) : V3 m ρ c main_arg9 = m ((c : Thread nD τ).loc main_arg9) := a3_9 m ρ c
theorem s1_arg11 (c : Dev nD) : V3 m ρ c main_arg11 = m ((c : Thread nD τ).loc main_arg11) := a3_11 m ρ c
theorem s1_arg17 (c : Dev nD) : V3 m ρ c main_arg17 = m ((c : Thread nD τ).loc main_arg17) := a3_17 m ρ c

theorem s1_b10 (c : Dev nD) (k : Fin 128) :
    V3 m ρ c main_v41 (ix2 (0 : Fin 1) k) = m ((c : Thread nD τ).loc main_arg10) (ix1 k) := by
  have e : V3 m ρ c main_v41 = shapeCast S1x128 (W2 m ρ c (Proc.devRef .tc main_arg10)) shapeCasts_S128_S1x128 := by
    show StableHlo.after hostOps1 (W2 m ρ c) (Proc.devRef .tc main_v41) = _
    after_results_simp <;> rfl
  rw [e, a2_10 m ρ c]
  exact Cert.Lib.RowRead.row_read _ _ k

theorem s1_b18 (c : Dev nD) (k : Fin 128) :
    V3 m ρ c main_v42 (ix2 (0 : Fin 1) k) = m ((c : Thread nD τ).loc main_arg18) (ix1 k) := by
  have e : V3 m ρ c main_v42 = shapeCast S1x128 (W2 m ρ c (Proc.devRef .tc main_arg18)) shapeCasts_S128_S1x128 := by
    show StableHlo.after hostOps1 (W2 m ρ c) (Proc.devRef .tc main_v42) = _
    after_results_simp <;> rfl
  rw [e, a2_18 m ρ c]
  exact Cert.Lib.RowRead.row_read _ _ k

/-- After region 1 its output array is the second layer of the launch arrays. -/
theorem out1 (c : Dev nD) : W4 m ρ c (Proc.devRef .tc main_v43)
    = layerRelu (N := 100000) (O := 128) (meanU (m ((c : Thread nD τ).loc main_arg0)) (m ((c : Thread nD τ).loc main_arg4)) (m ((c : Thread nD τ).loc main_arg5))) (m ((c : Thread nD τ).loc main_arg1)) (m ((c : Thread nD τ).loc main_arg9)) (fun k => (m ((c : Thread nD τ).loc main_arg10)) (ix1 k)) (m ((c : Thread nD τ).loc main_arg11)) (m ((c : Thread nD τ).loc main_arg17)) (fun k => (m ((c : Thread nD τ).loc main_arg18)) (ix1 k)) := by
  refine ((W4_arr m ρ c 7).trans (Region1.final (V3 m ρ) c)).trans ?_
  unfold Region1.G
  rw [s1_mean m ρ c, s1_arg1 m ρ c, s1_arg9 m ρ c, s1_arg11 m ρ c, s1_arg17 m ρ c]
  simp only [s1_b10 m ρ c, s1_b18 m ρ c]

/-- Region 0's output array is untouched by the second stretch and by region 1. -/
theorem keep0 (c : Dev nD) : W4 m ρ c (Proc.devRef .tc main_v21) = W2 m ρ c (Proc.devRef .tc main_v21) := by
  refine (W4_of_ne m ρ c main_v21 (by decide)).trans ?_
  show StableHlo.after hostOps1 (W2 m ρ c) (Proc.devRef .tc main_v21) = _
  after_results_simp <;> rfl

/-! ## Region 2 is entered with the user mean of the first layer, the second layer, its weights and bias rows -/

theorem s2_mean (c : Dev nD) : V5 m ρ c main_v62 = meanU (W2 m ρ c (Proc.devRef .tc main_v21)) (m ((c : Thread nD τ).loc main_arg4)) (m ((c : Thread nD τ).loc main_arg5)) := by
  have e : V5 m ρ c main_v62 = meanU (W4 m ρ c (Proc.devRef .tc main_v21)) (W4 m ρ c (Proc.devRef .tc main_arg4)) (W4 m ρ c (Proc.devRef .tc main_arg5)) := by
    show StableHlo.after hostOps2 (W4 m ρ c) (Proc.devRef .tc main_v62) = _
    after_results_simp <;> (unfold meanU; rfl)
  rw [e, keep0 m ρ c, a4_4 m ρ c, a4_5 m ρ c]
theorem s2_v43 (c : Dev nD) : V5 m ρ c main_v43 = W4 m ρ c (Proc.devRef .tc main_v43) := by
  show StableHlo.after hostOps2 (W4 m ρ c) (Proc.devRef .tc main_v43) = _
  after_results_simp <;> rfl
theorem s2_arg12 (c : Dev nD) : V5 m ρ c main_arg12 = m ((c : Thread nD τ).loc main_arg12) := a5_12 m ρ c
theorem s2_arg14 (c : Dev nD) : V5 m ρ c main_arg14 = m ((c : Thread nD τ).loc main_arg14) := a5_14 m ρ c
theorem s2_arg19 (c : Dev nD) : V5 m ρ c main_arg19 = m ((c : Thread nD τ).loc main_arg19) := a5_19 m ρ c

theorem s2_b13 (c : Dev nD) (k : Fin 128) :
    V5 m ρ c main_v63 (ix2 (0 : Fin 1) k) = m ((c : Thread nD τ).loc main_arg13) (ix1 k) := by
  have e : V5 m ρ c main_v63 = shapeCast S1x128 (W4 m ρ c (Proc.devRef .tc main_arg13)) shapeCasts_S128_S1x128 := by
    show StableHlo.after hostOps2 (W4 m ρ c) (Proc.devRef .tc main_v63) = _
    after_results_simp <;> rfl
  rw [e, a4_13 m ρ c]
  exact Cert.Lib.RowRead.row_read _ _ k

theorem s2_b20 (c : Dev nD) (k : Fin 64) :
    V5 m ρ c main_v64 (ix2 (0 : Fin 1) k) = m ((c : Thread nD τ).loc main_arg20) (ix1 k) := by
  have e : V5 m ρ c main_v64 = shapeCast S1x64 (W4 m ρ c (Proc.devRef .tc main_arg20)) shapeCasts_S64_S1x64 := by
    show StableHlo.after hostOps2 (W4 m ρ c) (Proc.devRef .tc main_v64) = _
    after_results_simp <;> rfl
  rw [e, a4_20 m ρ c]
  exact Cert.Lib.RowRead.row_read _ _ k

/-- THE KERNEL PROGRAM'S RESULT: the third layer, without a final rectifier, of the user mean of the first layer and of
    the second layer — all three layers functions of the launch arrays. -/
theorem result (c : Dev nD) : W6 m ρ c (Proc.devRef .tc main_v65)
    = layerLin (N := 100000) (O := 64)
        (meanU (layerRelu (N := 50000) (O := 128) (meanM (m ((c : Thread nD τ).loc main_arg0)) (m ((c : Thread nD τ).loc main_arg2)) (m ((c : Thread nD τ).loc main_arg3))) (m ((c : Thread nD τ).loc main_arg0)) (m ((c : Thread nD τ).loc main_arg6)) (fun k => (m ((c : Thread nD τ).loc main_arg7)) (ix1 k)) (m ((c : Thread nD τ).loc main_arg8)) (m ((c : Thread nD τ).loc main_arg15)) (fun k => (m ((c : Thread nD τ).loc main_arg16)) (ix1 k))) (m ((c : Thread nD τ).loc main_arg4)) (m ((c : Thread nD τ).loc main_arg5)))
        (layerRelu (N := 100000) (O := 128) (meanU (m ((c : Thread nD τ).loc main_arg0)) (m ((c : Thread nD τ).loc main_arg4)) (m ((c : Thread nD τ).loc main_arg5))) (m ((c : Thread nD τ).loc main_arg1)) (m ((c : Thread nD τ).loc main_arg9)) (fun k => (m ((c : Thread nD τ).loc main_arg10)) (ix1 k)) (m ((c : Thread nD τ).loc main_arg11)) (m ((c : Thread nD τ).loc main_arg17)) (fun k => (m ((c : Thread nD τ).loc main_arg18)) (ix1 k)))
        (m ((c : Thread nD τ).loc main_arg12)) (fun k => (m ((c : Thread nD τ).loc main_arg13)) (ix1 k)) (m ((c : Thread nD τ).loc main_arg14)) (m ((c : Thread nD τ).loc main_arg19)) (fun k => (m ((c : Thread nD τ).loc main_arg20)) (ix1 k)) := by
  refine ((W6_arr m ρ c 7).trans (Region2.final (V5 m ρ) c)).trans ?_
  unfold Region2.G
  rw [s2_mean m ρ c, s2_v43 m ρ c, s2_arg12 m ρ c, s2_arg14 m ρ c, s2_arg19 m ρ c, out0 m ρ c, out1 m ρ c]
  simp only [s2_b13 m ρ c, s2_b20 m ρ c]

end Cert.Sage.Host

end
-- ==== Proof.RefLayers.lean ====
/-
  The reference program's three dense chains, read at an index, are the layer of the specification.

  Each chain of the reference is: the neighbour mean through one weight matrix, plus a bias broadcast along the rows,
  plus the node's own features through a second matrix; the rectifier (a maximum with a broadcast zero); the result
  through a third matrix, plus a second bias; and, for the first two chains, the rectifier again. Read at the index
  (r, q), a product reads its operands at (r, k) and (k, q) and a broadcast bias at q, and the sums are associated as
  `Cert.Sage.hid` and `Cert.Sage.layerLin` associate them, so the two sides agree term by term: only indices have to be
  identified, no law of the extended reals is used. The neighbour-mean stages are left unopened.

  The third chain's neighbour mean is the second chain's, with the first layer's output in place of the input
  features: the same host operations applied to another array.
-/
import proofs.«102176_j76802605187593_1_alg».proof.Proof.Gen.ReferenceIdeal.Read
import proofs.«102176_j76802605187593_1_alg».proof.Proof.Spec
import Idealize.ShloMosaic.Lib.ValueIdx
import Idealize.ShloMosaic.PureOps.Ideal

noncomputable section

namespace Cert.Sage.Ref

open Cert.ReferenceIdeal Cert.ReferenceIdeal.Read Idealize.ShloMosaic Idealize.ShloMosaic.ValueIdx Cert.Sage

/-- The hidden activation of chain 1 at row `r`, column `k`: the mean through the first matrix, the bias entry, the
    node's own features through the second matrix, rectified — the specification's `hid`. -/
theorem hidden1 (x0 : (⟨S50000x128, .f32⟩ : BufTy).Contents (Elt Ideal)) (x2 : (⟨S800000, .i32⟩ : BufTy).Contents (Elt Ideal)) (x3 : (⟨S800000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (r : Fin 50000) (k : Fin 128) :
    val_main_v25 (F := Ideal) x0 x2 x3 x6 x7 x8 (ix2 r k)
      = hid (N := 50000) (val_main_v18 (F := Ideal) x0 x2 x3) x0 x6 (fun k => x7 (ix1 k)) x8 r k := by
  have el1 : ∀ j : Fin 128, lidx_main_v19 (ix2 r k) j = ix2 r j := fun j =>
    funext fun a => Fin.ext (by match a with | ⟨0, _⟩ => rfl | ⟨1, _⟩ => rfl)
  have er1 : ∀ j : Fin 128, ridx_main_v19 (ix2 r k) j = ix2 j k := fun j =>
    funext fun a => Fin.ext (by match a with | ⟨0, _⟩ => rfl | ⟨1, _⟩ => rfl)
  have el2 : ∀ j : Fin 128, lidx_main_v23 (ix2 r k) j = ix2 r j := fun j =>
    funext fun a => Fin.ext (by match a with | ⟨0, _⟩ => rfl | ⟨1, _⟩ => rfl)
  have er2 : ∀ j : Fin 128, ridx_main_v23 (ix2 r k) j = ix2 j k := fun j =>
    funext fun a => Fin.ext (by match a with | ⟨0, _⟩ => rfl | ⟨1, _⟩ => rfl)
  have eb : idx_main_v20 (idx_main_v21 (ix2 r k)) = ix1 k :=
    funext fun a => Fin.ext (by match a with | ⟨0, _⟩ => rfl)
  rw [val_main_v25_apply, val_main_v24_apply, val_main_v22_apply, val_main_v19_apply, val_main_v21_apply, val_main_v20_apply, val_main_v23_apply,
    val_main_call0_v0_apply, val_main_call0_cst_apply, eb]
  simp only [el1, er1, el2, er2]
  rfl

/-- Chain 1 is the specification's layer, with the final rectifier. -/
theorem layer1 (x0 : (⟨S50000x128, .f32⟩ : BufTy).Contents (Elt Ideal)) (x2 : (⟨S800000, .i32⟩ : BufTy).Contents (Elt Ideal)) (x3 : (⟨S800000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x15 : (⟨S128x128, .f32⟩ : BufTy).Contents (Elt Ideal)) (x16 : (⟨S128, .f32⟩ : BufTy).Contents (Elt Ideal)) :
    val_main_v30 (F := Ideal) x0 x2 x3 x6 x7 x8 x15 x16
      = layerRelu (N := 50000) (O := 128) (val_main_v18 (F := Ideal) x0 x2 x3) x0 x6 (fun k => x7 (ix1 k)) x8 x15
          (fun k => x16 (ix1 k)) := by
  funext i
  obtain ⟨r, q, rfl⟩ : ∃ (r : Fin 50000) (q : Fin 128), i = ix2 r q := ⟨i 0, i 1, eq_ix2 i⟩
  have el : ∀ k : Fin 128, lidx_main_v26 (ix2 r q) k = ix2 r k := fun k =>
    funext fun a => Fin.ext (by match a with | ⟨0, _⟩ => rfl | ⟨1, _⟩ => rfl)
  have er : ∀ k : Fin 128, ridx_main_v26 (ix2 r q) k = ix2 k q := fun k =>
    funext fun a => Fin.ext (by match a with | ⟨0, _⟩ => rfl | ⟨1, _⟩ => rfl)
  have eb : idx_main_v27 (idx_main_v28 (ix2 r q)) = ix1 q :=
    funext fun a => Fin.ext (by match a with | ⟨0, _⟩ => rfl)
  rw [val_main_v30_apply, val_main_v29_apply, val_main_v26_apply, val_main_v28_apply, val_main_v27_apply, val_main_call1_v0_apply, val_main_call1_cst_apply, eb]
  simp only [el, er, hidden1]
  rfl

/-- The hidden activation of chain 2 at row `r`, column `k`: the mean through the first matrix, the bias entry, the
    node's own features through the second matrix, rectified — the specification's `hid`. -/
theorem hidden2 (x0 : (⟨S50000x128, .f32⟩ : BufTy).Contents (Elt Ideal)) (x1 : (⟨S100000x128, .f32⟩ : BufTy).Contents (Elt Ideal)) (x4 : (⟨S1600000, .i32⟩ : BufTy).Contents (Elt Ideal)) (x5 : (⟨S1600000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (r : Fin 100000) (k : Fin 128) :
    val_main_v56 (F := Ideal) x0 x1 x4 x5 x9 x10 x11 (ix2 r k)
      = hid (N := 100000) (val_main_v49 (F := Ideal) x0 x4 x5) x1 x9 (fun k => x10 (ix1 k)) x11 r k := by
  have el1 : ∀ j : Fin 128, lidx_main_v50 (ix2 r k) j = ix2 r j := fun j =>
    funext fun a => Fin.ext (by match a with | ⟨0, _⟩ => rfl | ⟨1, _⟩ => rfl)
  have er1 : ∀ j : Fin 128, ridx_main_v50 (ix2 r k) j = ix2 j k := fun j =>
    funext fun a => Fin.ext (by match a with | ⟨0, _⟩ => rfl | ⟨1, _⟩ => rfl)
  have el2 : ∀ j : Fin 128, lidx_main_v54 (ix2 r k) j = ix2 r j := fun j =>
    funext fun a => Fin.ext (by match a with | ⟨0, _⟩ => rfl | ⟨1, _⟩ => rfl)
  have er2 : ∀ j : Fin 128, ridx_main_v54 (ix2 r k) j = ix2 j k := fun j =>
    funext fun a => Fin.ext (by match a with | ⟨0, _⟩ => rfl | ⟨1, _⟩ => rfl)
  have eb : idx_main_v51 (idx_main_v52 (ix2 r k)) = ix1 k :=
    funext fun a => Fin.ext (by match a with | ⟨0, _⟩ => rfl)
  rw [val_main_v56_apply, val_main_v55_apply, val_main_v53_apply, val_main_v50_apply, val_main_v52_apply, val_main_v51_apply, val_main_v54_apply,
    val_main_call2_v0_apply, val_main_call2_cst_apply, eb]
  simp only [el1, er1, el2, er2]
  rfl

/-- Chain 2 is the specification's layer, with the final rectifier. -/
theorem layer2 (x0 : (⟨S50000x128, .f32⟩ : BufTy).Contents (Elt Ideal)) (x1 : (⟨S100000x128, .f32⟩ : BufTy).Contents (Elt Ideal)) (x4 : (⟨S1600000, .i32⟩ : BufTy).Contents (Elt Ideal)) (x5 : (⟨S1600000, .i32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x17 : (⟨S128x128, .f32⟩ : BufTy).Contents (Elt Ideal)) (x18 : (⟨S128, .f32⟩ : BufTy).Contents (Elt Ideal)) :
    val_main_v61 (F := Ideal) x0 x1 x4 x5 x9 x10 x11 x17 x18
      = layerRelu (N := 100000) (O := 128) (val_main_v49 (F := Ideal) x0 x4 x5) x1 x9 (fun k => x10 (ix1 k)) x11 x17
          (fun k => x18 (ix1 k)) := by
  funext i
  obtain ⟨r, q, rfl⟩ : ∃ (r : Fin 100000) (q : Fin 128), i = ix2 r q := ⟨i 0, i 1, eq_ix2 i⟩
  have el : ∀ k : Fin 128, lidx_main_v57 (ix2 r q) k = ix2 r k := fun k =>
    funext fun a => Fin.ext (by match a with | ⟨0, _⟩ => rfl | ⟨1, _⟩ => rfl)
  have er : ∀ k : Fin 128, ridx_main_v57 (ix2 r q) k = ix2 k q := fun k =>
    funext fun a => Fin.ext (by match a with | ⟨0, _⟩ => rfl | ⟨1, _⟩ => rfl)
  have eb : idx_main_v58 (idx_main_v59 (ix2 r q)) = ix1 q :=
    funext fun a => Fin.ext (by match a with | ⟨0, _⟩ => rfl)
  rw [val_main_v61_apply, val_main_v60_apply, val_main_v57_apply, val_main_v59_apply, val_main_v58_apply, val_main_call3_v0_apply, val_main_call3_cst_apply, eb]
  simp only [el, er, hidden2]
  rfl

/-- The hidden activation of chain 3 at row `r`, column `k`: the mean through the first matrix, the bias entry, the
    node's own features through the second matrix, rectified — the specification's `hid`. -/
theorem hidden3 (x0 : (⟨S50000x128, .f32⟩ : BufTy).Contents (Elt Ideal)) (x1 : (⟨S100000x128, .f32⟩ : BufTy).Contents (Elt Ideal)) (x2 : (⟨S800000, .i32⟩ : BufTy).Contents (Elt Ideal)) (x3 : (⟨S800000, .i32⟩ : BufTy).Contents (Elt Ideal)) (x4 : (⟨S1600000, .i32⟩ : BufTy).Contents (Elt Ideal)) (x5 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (r : Fin 100000) (k : Fin 128) :
    val_main_v87 (F := Ideal) x0 x1 x2 x3 x4 x5 x6 x7 x8 x9 x10 x11 x12 x13 x14 x15 x16 x17 x18 (ix2 r k)
      = hid (N := 100000) (val_main_v80 (F := Ideal) x0 x2 x3 x4 x5 x6 x7 x8 x15 x16) (val_main_v61 (F := Ideal) x0 x1 x4 x5 x9 x10 x11 x17 x18) x12 (fun k => x13 (ix1 k)) x14 r k := by
  have el1 : ∀ j : Fin 128, lidx_main_v81 (ix2 r k) j = ix2 r j := fun j =>
    funext fun a => Fin.ext (by match a with | ⟨0, _⟩ => rfl | ⟨1, _⟩ => rfl)
  have er1 : ∀ j : Fin 128, ridx_main_v81 (ix2 r k) j = ix2 j k := fun j =>
    funext fun a => Fin.ext (by match a with | ⟨0, _⟩ => rfl | ⟨1, _⟩ => rfl)
  have el2 : ∀ j : Fin 128, lidx_main_v85 (ix2 r k) j = ix2 r j := fun j =>
    funext fun a => Fin.ext (by match a with | ⟨0, _⟩ => rfl | ⟨1, _⟩ => rfl)
  have er2 : ∀ j : Fin 128, ridx_main_v85 (ix2 r k) j = ix2 j k := fun j =>
    funext fun a => Fin.ext (by match a with | ⟨0, _⟩ => rfl | ⟨1, _⟩ => rfl)
  have eb : idx_main_v82 (idx_main_v83 (ix2 r k)) = ix1 k :=
    funext fun a => Fin.ext (by match a with | ⟨0, _⟩ => rfl)
  rw [val_main_v87_apply, val_main_v86_apply, val_main_v84_apply, val_main_v81_apply, val_main_v83_apply, val_main_v82_apply, val_main_v85_apply,
    val_main_call4_v0_apply, val_main_call4_cst_apply, eb]
  simp only [el1, er1, el2, er2]
  rfl

/-- Chain 3 is the specification's layer, with no final rectifier. -/
theorem layer3 (x0 : (⟨S50000x128, .f32⟩ : BufTy).Contents (Elt Ideal)) (x1 : (⟨S100000x128, .f32⟩ : BufTy).Contents (Elt Ideal)) (x2 : (⟨S800000, .i32⟩ : BufTy).Contents (Elt Ideal)) (x3 : (⟨S800000, .i32⟩ : BufTy).Contents (Elt Ideal)) (x4 : (⟨S1600000, .i32⟩ : BufTy).Contents (Elt Ideal)) (x5 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x64, .f32⟩ : BufTy).Contents (Elt Ideal)) (x20 : (⟨S64, .f32⟩ : BufTy).Contents (Elt Ideal)) :
    val_main_v91 (F := Ideal) x0 x1 x2 x3 x4 x5 x6 x7 x8 x9 x10 x11 x12 x13 x14 x15 x16 x17 x18 x19 x20
      = layerLin (N := 100000) (O := 64) (val_main_v80 (F := Ideal) x0 x2 x3 x4 x5 x6 x7 x8 x15 x16) (val_main_v61 (F := Ideal) x0 x1 x4 x5 x9 x10 x11 x17 x18) x12 (fun k => x13 (ix1 k)) x14 x19
          (fun k => x20 (ix1 k)) := by
  funext i
  obtain ⟨r, q, rfl⟩ : ∃ (r : Fin 100000) (q : Fin 64), i = ix2 r q := ⟨i 0, i 1, eq_ix2 i⟩
  have el : ∀ k : Fin 128, lidx_main_v88 (ix2 r q) k = ix2 r k := fun k =>
    funext fun a => Fin.ext (by match a with | ⟨0, _⟩ => rfl | ⟨1, _⟩ => rfl)
  have er : ∀ k : Fin 128, ridx_main_v88 (ix2 r q) k = ix2 k q := fun k =>
    funext fun a => Fin.ext (by match a with | ⟨0, _⟩ => rfl | ⟨1, _⟩ => rfl)
  have eb : idx_main_v89 (idx_main_v90 (ix2 r q)) = ix1 q :=
    funext fun a => Fin.ext (by match a with | ⟨0, _⟩ => rfl)
  rw [val_main_v91_apply, val_main_v88_apply, val_main_v90_apply, val_main_v89_apply, eb]
  simp only [el, er, hidden3]
  rfl

/-- The third chain's neighbour mean is the second chain's host operations — index normalisation, gather, the two
    scatter-adds, the maximum with one, the division — applied to the first layer's output in place of the input
    features. -/
theorem mean3 (x0 : (⟨S50000x128, .f32⟩ : BufTy).Contents (Elt Ideal)) (x2 : (⟨S800000, .i32⟩ : BufTy).Contents (Elt Ideal)) (x3 : (⟨S800000, .i32⟩ : BufTy).Contents (Elt Ideal)) (x4 : (⟨S1600000, .i32⟩ : BufTy).Contents (Elt Ideal)) (x5 : (⟨S1600000, .i32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x15 : (⟨S128x128, .f32⟩ : BufTy).Contents (Elt Ideal)) (x16 : (⟨S128, .f32⟩ : BufTy).Contents (Elt Ideal)) :
    val_main_v80 (F := Ideal) x0 x2 x3 x4 x5 x6 x7 x8 x15 x16
      = val_main_v49 (F := Ideal) (val_main_v30 (F := Ideal) x0 x2 x3 x6 x7 x8 x15 x16) x4 x5 := by
  simp only [val_main_c_10, val_main_v62, val_main_v63, val_main_c_11, val_main_v64, val_main_v65, val_main_v66, val_main_v67, val_main_v68, val_main_cst_12, val_main_v69, val_main_v70, val_main_v71, val_main_cst_13, val_main_v72, val_main_cst_14, val_main_v73, val_main_v74, val_main_v75, val_main_cst_15, val_main_v76, val_main_v77, val_main_v78, val_main_v79, val_main_v80, val_main_c_4, val_main_v31, val_main_v32, val_main_c_5, val_main_v33, val_main_v34, val_main_v35, val_main_v36, val_main_v37, val_main_cst_6, val_main_v38, val_main_v39, val_main_v40, val_main_cst_7, val_main_v41, val_main_cst_8, val_main_v42, val_main_v43, val_main_v44, val_main_cst_9, val_main_v45, val_main_v46, val_main_v47, val_main_v48, val_main_v49]

end Cert.Sage.Ref

end
-- ==== Proof.MeanEq.lean ====
/-
  The reference's neighbour-mean stages are the kernel program's neighbour means.

  The reference's stage for the movie mean (its first 25 host operations, as a function of the feature array and the
  two edge lists) and the kernel program's `meanM` are the same host operations with the same literals, spelt over each
  program's own copies of the shape and dimension records; likewise the user mean and `meanU`. The records are equal by
  unfolding, and no gather or scatter is evaluated.
-/
import proofs.«102176_j76802605187593_1_alg».proof.Proof.Gen.ReferenceIdeal.Read
import proofs.«102176_j76802605187593_1_alg».proof.Proof.KMean

noncomputable section

namespace Cert.Sage.Ref

open Idealize.ShloMosaic

/-- The reference's movie-mean stage is `meanM`. -/
theorem meanM_eq (x : (⟨Cert.ReferenceIdeal.S50000x128, .f32⟩ : BufTy).Contents (Elt Ideal))
    (src dst : (⟨Cert.ReferenceIdeal.S800000, .i32⟩ : BufTy).Contents (Elt Ideal)) :
    Cert.ReferenceIdeal.Read.val_main_v18 (F := Ideal) x src dst = Cert.Sage.Host.meanM x src dst := by
  simp only [Cert.ReferenceIdeal.Read.val_main_c, Cert.ReferenceIdeal.Read.val_main_v0, Cert.ReferenceIdeal.Read.val_main_v1, Cert.ReferenceIdeal.Read.val_main_c_0, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_cst, Cert.ReferenceIdeal.Read.val_main_v7, Cert.ReferenceIdeal.Read.val_main_v8, Cert.ReferenceIdeal.Read.val_main_v9, Cert.ReferenceIdeal.Read.val_main_cst_1, Cert.ReferenceIdeal.Read.val_main_v10, Cert.ReferenceIdeal.Read.val_main_cst_2, Cert.ReferenceIdeal.Read.val_main_v11, Cert.ReferenceIdeal.Read.val_main_v12, Cert.ReferenceIdeal.Read.val_main_v13, Cert.ReferenceIdeal.Read.val_main_cst_3, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.Sage.Host.meanM]
  rfl

/-- The reference's user-mean stage, as a function of the feature array, is `meanU`. -/
theorem meanU_eq (x : (⟨Cert.ReferenceIdeal.S50000x128, .f32⟩ : BufTy).Contents (Elt Ideal))
    (src dst : (⟨Cert.ReferenceIdeal.S1600000, .i32⟩ : BufTy).Contents (Elt Ideal)) :
    Cert.ReferenceIdeal.Read.val_main_v49 (F := Ideal) x src dst = Cert.Sage.Host.meanU x src dst := by
  simp only [Cert.ReferenceIdeal.Read.val_main_c_4, Cert.ReferenceIdeal.Read.val_main_v31, Cert.ReferenceIdeal.Read.val_main_v32, Cert.ReferenceIdeal.Read.val_main_c_5, Cert.ReferenceIdeal.Read.val_main_v33, Cert.ReferenceIdeal.Read.val_main_v34, Cert.ReferenceIdeal.Read.val_main_v35, Cert.ReferenceIdeal.Read.val_main_v36, Cert.ReferenceIdeal.Read.val_main_v37, Cert.ReferenceIdeal.Read.val_main_cst_6, Cert.ReferenceIdeal.Read.val_main_v38, Cert.ReferenceIdeal.Read.val_main_v39, Cert.ReferenceIdeal.Read.val_main_v40, Cert.ReferenceIdeal.Read.val_main_cst_7, Cert.ReferenceIdeal.Read.val_main_v41, Cert.ReferenceIdeal.Read.val_main_cst_8, Cert.ReferenceIdeal.Read.val_main_v42, Cert.ReferenceIdeal.Read.val_main_v43, Cert.ReferenceIdeal.Read.val_main_v44, Cert.ReferenceIdeal.Read.val_main_cst_9, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.Sage.Host.meanU]
  rfl

end Cert.Sage.Ref

end
-- ==== Proof.RefResult.lean ====
/-
  The reference's result in closed form.

  The reference run ends with its result at the composed term of its 120 host operations. Read stage by stage, that term
  is the third layer (no final rectifier) of the user mean of the first layer and of the second layer, the layers those
  of the specification and the means the kernel program's named means — the same closed form the kernel program's
  result has.
-/
import proofs.«102176_j76802605187593_1_alg».proof.Proof.RefLayers
import proofs.«102176_j76802605187593_1_alg».proof.Proof.MeanEq

noncomputable section

namespace Cert.Sage.Ref

open Idealize.ShloMosaic Idealize.ShloMosaic.TcCoe Idealize.ShloMosaic.ValueIdx Idealize.SL.Sem Cert.Sage
open Cert.ReferenceIdeal

theorem result (m : (ℓ : Loc nD τ sig) → Buf (Elt Ideal) ℓ) (c : Dev nD) :
    Cert.ReferenceIdeal.Value.res_main_v91 (F := Ideal) m c
      = layerLin (N := 100000) (O := 64)
        (Cert.Sage.Host.meanU (layerRelu (N := 50000) (O := 128) (Cert.Sage.Host.meanM (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg6)) (fun k => (m ((c.tc : Thread Cert.ReferenceIdeal.nD Cert.ReferenceIdeal.τ).loc Cert.ReferenceIdeal.main_arg7)) (ix1 k)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg15)) (fun k => (m ((c.tc : Thread Cert.ReferenceIdeal.nD Cert.ReferenceIdeal.τ).loc Cert.ReferenceIdeal.main_arg16)) (ix1 k))) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)))
        (layerRelu (N := 100000) (O := 128) (Cert.Sage.Host.meanU (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg9)) (fun k => (m ((c.tc : Thread Cert.ReferenceIdeal.nD Cert.ReferenceIdeal.τ).loc Cert.ReferenceIdeal.main_arg10)) (ix1 k)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg17)) (fun k => (m ((c.tc : Thread Cert.ReferenceIdeal.nD Cert.ReferenceIdeal.τ).loc Cert.ReferenceIdeal.main_arg18)) (ix1 k)))
        (m ((c.tc : Thread Cert.ReferenceIdeal.nD Cert.ReferenceIdeal.τ).loc Cert.ReferenceIdeal.main_arg12)) (fun k => (m ((c.tc : Thread Cert.ReferenceIdeal.nD Cert.ReferenceIdeal.τ).loc Cert.ReferenceIdeal.main_arg13)) (ix1 k)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg19)) (fun k => (m ((c.tc : Thread Cert.ReferenceIdeal.nD Cert.ReferenceIdeal.τ).loc Cert.ReferenceIdeal.main_arg20)) (ix1 k)) := by
  rw [Cert.ReferenceIdeal.Read.val_main_v91_eq, layer3, mean3, layer1, layer2]
  simp only [meanM_eq, meanU_eq]

end Cert.Sage.Ref

end
-- ==== Proof.lean ====
/-
  The certificate: the fused-layer kernels against the plain reference, for a three-layer graph network.

  Both programs take movie and user features, two edge lists and the weights of three layers. A layer maps an
  aggregated feature array `agg` and the nodes' own features `self` to
      relu( relu( agg·Wl + bl + self·Wr )·Wd + bd )        (the third layer without the outer relu),
  and the network is: h = layer₁(mean over movie–movie edges of the movie features, movie features);
  u = layer₂(mean over movie–user edges of the movie features, user features);
  result = layer₃(mean over movie–user edges of h, u).
  The kernel program computes the three neighbour means with host operations and each layer in one kernel over blocks
  of 5000 rows; the reference does everything with host operations.

  At the ideal instance a change of float format is the identity, a matrix product into a zero accumulator and the
  host's dot product are the same sum over the contracted axis, and both programs associate the sums alike, so the two
  results are the same function of the arguments index by index, with no law of the extended reals used and no use of
  the finiteness of the inputs:
    * Spec: the layer, index by index (`Cert.Sage.layerRelu`, `layerLin`); a row depends on the same rows of its inputs;
    * KPay: what each kernel body stores is the layer of its blocks;
    * KRegion0/1/2: after a region its output array is the layer of the arrays it found (blocks of one function, covering);
    * LibRowRead: a bias vector reshaped into a row, read at an index;
    * KMean, KHost: the host stretches between the regions, the means kept as opaque functions; the program's result;
    * KRun: the program's run with the result buffer named;
    * RefLayers, MeanEq, RefResult: the reference's composed term is the same closed form.
  The frames of the two kernel programs are the generated ones; the reference's is its generated run with the result
  dropped; the idealization rewrote nothing, so `preserves` is trivial.
-/
import proofs.«102176_j76802605187593_1_alg».proof.Defs
import proofs.«102176_j76802605187593_1_alg».proof.Proof.Gen.Kernel
import proofs.«102176_j76802605187593_1_alg».proof.Proof.Gen.Kernel.Frame
import proofs.«102176_j76802605187593_1_alg».proof.Proof.Gen.KernelIdeal
import proofs.«102176_j76802605187593_1_alg».proof.Proof.Gen.KernelIdeal.Frame
import proofs.«102176_j76802605187593_1_alg».proof.Proof.Gen.ReferenceIdeal
import proofs.«102176_j76802605187593_1_alg».proof.Proof.Gen.ReferenceIdeal.Read
import proofs.«102176_j76802605187593_1_alg».proof.Proof.Gen.Pre_finite_inputs
import proofs.«102176_j76802605187593_1_alg».proof.Proof.KRun
import proofs.«102176_j76802605187593_1_alg».proof.Proof.KHost
import proofs.«102176_j76802605187593_1_alg».proof.Proof.RefResult
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both runs end with the result at the same closed form of their arguments, and the arguments agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W6 m ρ c (Proc.devRef .tc Cert.KernelIdeal.main_v65),
    Cert.Sage.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  rw [Cert.Sage.Ref.result m' c, h0, h1, h2, h3, h4, h5, h6, h7, h8, h9, h10, h11, h12, h13, h14, h15, h16, h17, h18, h19, h20]
  exact (Cert.Sage.Host.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
